-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x896 : Shape := ⟨2, ![65536, 896]⟩
abbrev S65536x128 : Shape := ⟨2, ![65536, 128]⟩
abbrev S65536x15x128 : Shape := ⟨3, ![65536, 15, 128]⟩
abbrev S65536x15 : Shape := ⟨2, ![65536, 15]⟩
abbrev S896x128 : Shape := ⟨2, ![896, 128]⟩
abbrev S896 : Shape := ⟨1, ![896]⟩
abbrev S128x128 : Shape := ⟨2, ![128, 128]⟩
abbrev S_ : Shape := ⟨0, ![]⟩

class Facts : Prop where
  bcast_S_S65536x896 : S_.BroadcastsInDim S65536x896 (![] : Fin 0 → Fin S65536x896.rank)
  reducesTo_S65536x896_S_d0_1 : S65536x896.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S65536x15x128 : S_.BroadcastsInDim S65536x15x128 (![] : Fin 0 → Fin S65536x15x128.rank)
  reducesTo_S65536x15x128_S_d0_1_2 : S65536x15x128.ReducesTo [0, 1, 2] S_
  bcast_S_S65536x15 : S_.BroadcastsInDim S65536x15 (![] : Fin 0 → Fin S65536x15.rank)
  reducesTo_S65536x15_S_d0_1 : S65536x15.ReducesTo [0, 1] S_
  bcast_S_S896x128 : S_.BroadcastsInDim S896x128 (![] : Fin 0 → Fin S896x128.rank)
  reducesTo_S896x128_S_d0_1 : S896x128.ReducesTo [0, 1] S_
  bcast_S_S896 : S_.BroadcastsInDim S896 (![] : Fin 0 → Fin S896.rank)
  reducesTo_S896_S_d0 : S896.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S896x128 .f32) (main_arg8 : FVec F S896 .f32) (main_arg9 : FVec F S128x128 .f32) (main_v33 : IVec S_ 1) : IVec S_ 1 :=
  let main_v34 : FVec F S896x128 .f32 := Host.absf main_arg7
  let main_cst_12 : FVec F S_ .f32 := constant S_ .f32 0x7F800000#32
  let main_v35 : FVec F S896x128 .f32 := broadcastInDim S896x128 ![] bcast_S_S896x128 main_cst_12
  let main_v36 : IVec S896x128 1 := cmpf .olt main_v34 main_v35
  let main_c_13 : IVec S_ 1 := constantI S_ 1 1#1
  let main_v37 : IVec S_ 1 := (fun x v => Host.reduce IntOp.andi x v reducesTo_S896x128_S_d0_1 h_S_) main_v36 main_c_13
  let main_v38 : IVec S_ 1 := andi main_v33 main_v37
  let main_v39 : FVec F S896 .f32 := Host.absf main_arg8
  let main_cst_14 : FVec F S_ .f32 := constant S_ .f32 0x7F800000#32
  let main_v40 : FVec F S896 .f32 := broadcastInDim S896 ![] bcast_S_S896 main_cst_14
  let main_v41 : IVec S896 1 := cmpf .olt main_v39 main_v40
  let main_c_15 : IVec S_ 1 := constantI S_ 1 1#1
  let main_v42 : IVec S_ 1 := (fun x v => Host.reduce IntOp.andi x v reducesTo_S896_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg4 : FVec F S65536x15 .f32) (main_arg5 : FVec F S896x128 .f32) (main_arg6 : FVec F S896 .f32) (main_arg7 : FVec F S896x128 .f32) (main_arg8 : FVec F S896 .f32) (main_arg9 : FVec F S128x128 .f32) (main_v13 : IVec S_ 1) (main_v16 : IVec S65536x15x128 1) : IVec S_ 1 :=
  let main_c_5 : IVec S_ 1 := constantI S_ 1 1#1
  let main_v17 : IVec S_ 1 := (fun x v => Host.reduce IntOp.andi x v reducesTo_S65536x15x128_S_d0_1_2 h_S_) main_v16 main_c_5
  let main_v18 : IVec S_ 1 := andi main_v13 main_v17
  let main_v19 : FVec F S65536x15 .f32 := Host.absf main_arg4
  let main_cst_6 : FVec F S_ .f32 := constant S_ .f32 0x7F800000#32
  let main_v20 : FVec F S65536x15 .f32 := broadcastInDim S65536x15 ![] bcast_S_S65536x15 main_cst_6
  let main_v21 : IVec S65536x15 1 := cmpf .olt main_v19 main_v20
  let main_c_7 : IVec S_ 1 := constantI S_ 1 1#1
  let main_v22 : IVec S_ 1 := (fun x v => Host.reduce IntOp.andi x v reducesTo_S65536x15_S_d0_1 h_S_) main_v21 main_c_7
  let main_v23 : IVec S_ 1 := andi main_v18 main_v22
  let main_v24 : FVec F S896x128 .f32 := Host.absf main_arg5
  let main_cst_8 : FVec F S_ .f32 := constant S_ .f32 0x7F800000#32
  let main_v25 : FVec F S896x128 .f32 := broadcastInDim S896x128 ![] bcast_S_S896x128 main_cst_8
  let main_v26 : IVec S896x128 1 := cmpf .olt main_v24 main_v25
  let main_c_9 : IVec S_ 1 := constantI S_ 1 1#1
  let main_v27 : IVec S_ 1 := (fun x v => Host.reduce IntOp.andi x v reducesTo_S896x128_S_d0_1 h_S_) main_v26 main_c_9
  let main_v28 : IVec S_ 1 := andi main_v23 main_v27
  let main_v29 : FVec F S896 .f32 := Host.absf main_arg6
  let main_cst_10 : FVec F S_ .f32 := constant S_ .f32 0x7F800000#32
  let main_v30 : FVec F S896 .f32 := broadcastInDim S896 ![] bcast_S_S896 main_cst_10
  let main_v31 : IVec S896 1 := cmpf .olt main_v29 main_v30
  let main_c_11 : IVec S_ 1 := constantI S_ 1 1#1
  let main_v32 : IVec S_ 1 := (fun x v => Host.reduce IntOp.andi x v reducesTo_S896_S_d0 h_S_) main_v31 main_c_11
  let main_v33 : IVec S_ 1 := andi main_v28 main_v32
  fn_part2 (F := F) main_arg7 main_arg8 main_arg9 main_v33

def fn {F : FTy → Type} [FloatOps F] (main_arg0 : FVec F S65536x896 .f32) (main_arg1 : FVec F S65536x128 .f32) (main_arg2 : FVec F S65536x128 .f32) (main_arg3 : FVec F S65536x15x128 .f32) (main_arg4 : FVec F S65536x15 .f32) (main_arg5 : FVec F S896x128 .f32) (main_arg6 : FVec F S896 .f32) (main_arg7 : FVec F S896x128 .f32) (main_arg8 : FVec F S896 .f32) (main_arg9 : FVec F S128x128 .f32) : IVec S_ 1 :=
  let main_v0 : FVec F S65536x896 .f32 := Host.absf main_arg0
  let main_cst : FVec F S_ .f32 := constant S_ .f32 0x7F800000#32
  let main_v1 : FVec F S65536x896 .f32 := broadcastInDim S65536x896 ![] bcast_S_S65536x896 main_cst
  let main_v2 : IVec S65536x896 1 := cmpf .olt main_v0 main_v1
  let main_c : IVec S_ 1 := constantI S_ 1 1#1
  let main_v3 : IVec S_ 1 := (fun x v => Host.reduce IntOp.andi x v reducesTo_S65536x896_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S65536x128 .f32 := Host.absf main_arg2
  let main_cst_2 : FVec F S_ .f32 := constant S_ .f32 0x7F800000#32
  let main_v10 : FVec F S65536x128 .f32 := broadcastInDim S65536x128 ![] bcast_S_S65536x128 main_cst_2
  let main_v11 : IVec S65536x128 1 := cmpf .olt main_v9 main_v10
  let main_c_3 : IVec S_ 1 := constantI S_ 1 1#1
  let main_v12 : IVec S_ 1 := (fun x v => Host.reduce IntOp.andi x v reducesTo_S65536x128_S_d0_1 h_S_) main_v11 main_c_3
  let main_v13 : IVec S_ 1 := andi main_v8 main_v12
  let main_v14 : FVec F S65536x15x128 .f32 := Host.absf main_arg3
  let main_cst_4 : FVec F S_ .f32 := constant S_ .f32 0x7F800000#32
  let main_v15 : FVec F S65536x15x128 .f32 := broadcastInDim S65536x15x128 ![] bcast_S_S65536x15x128 main_cst_4
  let main_v16 : IVec S65536x15x128 1 := cmpf .olt main_v14 main_v15
  fn_part1 (F := F) main_arg4 main_arg5 main_arg6 main_arg7 main_arg8 main_arg9 main_v13 main_v16
-- ==== Kernel.lean ====
abbrev S65536x896 : Shape := ⟨2, ![65536, 896]⟩
abbrev S65536x128 : Shape := ⟨2, ![65536, 128]⟩
abbrev S65536x15x128 : Shape := ⟨3, ![65536, 15, 128]⟩
abbrev S65536x15 : Shape := ⟨2, ![65536, 15]⟩
abbrev S896x128 : Shape := ⟨2, ![896, 128]⟩
abbrev S896 : Shape := ⟨1, ![896]⟩
abbrev S128x128 : Shape := ⟨2, ![128, 128]⟩
abbrev S1x896 : Shape := ⟨2, ![1, 896]⟩
abbrev S65536x1792 : Shape := ⟨2, ![65536, 1792]⟩
abbrev S512x896 : Shape := ⟨2, ![512, 896]⟩
abbrev S512x128 : Shape := ⟨2, ![512, 128]⟩
abbrev S512x15x128 : Shape := ⟨3, ![512, 15, 128]⟩
abbrev S512x15 : Shape := ⟨2, ![512, 15]⟩
abbrev S512x1792 : Shape := ⟨2, ![512, 1792]⟩
abbrev S512x1x128 : Shape := ⟨3, ![512, 1, 128]⟩
abbrev S512x1 : Shape := ⟨2, ![512, 1]⟩
abbrev S65536x14x128 : Shape := ⟨3, ![65536, 14, 128]⟩

abbrev nBuf : Space → Nat
  | .hbm => 17
  | .vmem => 17
  | .smem => 0
  | _ => 0

abbrev bufTy : (tb : Table) → Fin (tcTables nBuf tb) → BufTy
  | .hbm, ⟨0, _⟩ => ⟨S65536x896, .f32⟩
  | .hbm, ⟨1, _⟩ => ⟨S65536x128, .f32⟩
  | .hbm, ⟨2, _⟩ => ⟨S65536x128, .f32⟩
  | .hbm, ⟨3, _⟩ => ⟨S65536x15x128, .f32⟩
  | .hbm, ⟨4, _⟩ => ⟨S65536x15, .f32⟩
  | .hbm, ⟨5, _⟩ => ⟨S896x128, .f32⟩
  | .hbm, ⟨6, _⟩ => ⟨S896, .f32⟩
  | .hbm, ⟨7, _⟩ => ⟨S896x128, .f32⟩
  | .hbm, ⟨8, _⟩ => ⟨S896, .f32⟩
  | .hbm, ⟨9, _⟩ => ⟨S128x128, .f32⟩
  | .hbm, ⟨10, _⟩ => ⟨S1x896, .f32⟩
  | .hbm, ⟨11, _⟩ => ⟨S1x896, .f32⟩
  | .hbm, ⟨12, _⟩ => ⟨S896x128, .bf16⟩
  | .hbm, ⟨13, _⟩ => ⟨S896x128, .bf16⟩
  | .hbm, ⟨14, _⟩ => ⟨S128x128, .bf16⟩
  | .hbm, ⟨15, _⟩ => ⟨S65536x1792, .f32⟩
  | .hbm, ⟨16, _⟩ => ⟨S65536x14x128, .f32⟩
  | .local _ .vmem, ⟨0, _⟩ => ⟨S512x896, .f32⟩
  | .local _ .vmem, ⟨1, _⟩ => ⟨S512x896, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x15x128, .f32⟩
  | .local _ .vmem, ⟨7, _⟩ => ⟨S512x15x128, .f32⟩
  | .local _ .vmem, ⟨8, _⟩ => ⟨S512x15, .f32⟩
  | .local _ .vmem, ⟨9, _⟩ => ⟨S512x15, .f32⟩
  | .local _ .vmem, ⟨10, _⟩ => ⟨S896x128, .bf16⟩
  | .local _ .vmem, ⟨11, _⟩ => ⟨S1x896, .f32⟩
  | .local _ .vmem, ⟨12, _⟩ => ⟨S896x128, .bf16⟩
  | .local _ .vmem, ⟨13, _⟩ => ⟨S1x896, .f32⟩
  | .local _ .vmem, ⟨14, _⟩ => ⟨S128x128, .bf16⟩
  | .local _ .vmem, ⟨15, _⟩ => ⟨S512x1792, .f32⟩
  | .local _ .vmem, ⟨16, _⟩ => ⟨S512x1792, .f32⟩
  | _, _ => ⟨S65536x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x15x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x15 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S896x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x896 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S896x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1792 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S896_S1x896 : S896.ShapeCasts S1x896
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S896x128_S896x128_0_0 : ∀ a, (![0, 0] : Fin 2 → Nat) a + S896x128.size a ≤ S896x128.size a
  h_S896x128 : 0 < S896x128.numel
  shapeCasts_S896x128_S896x128 : S896x128.ShapeCasts S896x128
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S512x896 : S1x896.Broadcasts S512x896
  inb_S512x896_S512x896_0_0 : ∀ a, (![0, 0] : Fin 2 → Nat) a + S512x896.size a ≤ S512x896.size a
  h_S512x896 : 0 < S512x896.numel
  slices_S512x896_o0_0_S512x128 : S512x896.Slices ![0, 0] S512x128
  inb_S512x15x128_S512x15x128_0_0_0 : ∀ a, (![0, 0, 0] : Fin 3 → Nat) a + S512x15x128.size a ≤ S512x15x128.size a
  h_S512x15x128 : 0 < S512x15x128.numel
  inb_S512x15_S512x15_0_0 : ∀ a, (![0, 0] : Fin 2 → Nat) a + S512x15.size a ≤ S512x15.size a
  h_S512x15 : 0 < S512x15.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S512x896_o0_128_S512x128 : S512x896.Slices ![0, 128] S512x128
  slices_S512x896_o0_512_S512x128 : S512x896.Slices ![0, 512] S512x128
  slices_S512x15x128_o0_0_0_S512x1x128 : S512x15x128.Slices ![0, 0, 0] S512x1x128
  shapeCasts_S512x1x128_S512x128 : S512x1x128.ShapeCasts S512x128
  slices_S512x15_o0_0_S512x1 : S512x15.Slices ![0, 0] S512x1
  broadcasts_S512x1_S512x128 : S512x1.Broadcasts S512x128
  slices_S512x15x128_o0_1_0_S512x1x128 : S512x15x128.Slices ![0, 1, 0] S512x1x128
  slices_S512x15_o0_1_S512x1 : S512x15.Slices ![0, 1] S512x1
  slices_S512x15x128_o0_2_0_S512x1x128 : S512x15x128.Slices ![0, 2, 0] S512x1x128
  slices_S512x15_o0_2_S512x1 : S512x15.Slices ![0, 2] S512x1
  slices_S512x896_o0_256_S512x128 : S512x896.Slices ![0, 256] S512x128
  slices_S512x896_o0_640_S512x128 : S512x896.Slices ![0, 640] S512x128
  slices_S512x15x128_o0_3_0_S512x1x128 : S512x15x128.Slices ![0, 3, 0] S512x1x128
  slices_S512x15_o0_3_S512x1 : S512x15.Slices ![0, 3] S512x1
  slices_S512x15x128_o0_4_0_S512x1x128 : S512x15x128.Slices ![0, 4, 0] S512x1x128
  slices_S512x15_o0_4_S512x1 : S512x15.Slices ![0, 4] S512x1
  slices_S512x15x128_o0_5_0_S512x1x128 : S512x15x128.Slices ![0, 5, 0] S512x1x128
  slices_S512x15_o0_5_S512x1 : S512x15.Slices ![0, 5] S512x1
  slices_S512x15x128_o0_6_0_S512x1x128 : S512x15x128.Slices ![0, 6, 0] S512x1x128
  slices_S512x15_o0_6_S512x1 : S512x15.Slices ![0, 6] S512x1
  slices_S512x15x128_o0_7_0_S512x1x128 : S512x15x128.Slices ![0, 7, 0] S512x1x128
  slices_S512x15_o0_7_S512x1 : S512x15.Slices ![0, 7] S512x1
  slices_S512x896_o0_384_S512x128 : S512x896.Slices ![0, 384] S512x128
  slices_S512x896_o0_768_S512x128 : S512x896.Slices ![0, 768] S512x128
  slices_S512x15x128_o0_8_0_S512x1x128 : S512x15x128.Slices ![0, 8, 0] S512x1x128
  slices_S512x15_o0_8_S512x1 : S512x15.Slices ![0, 8] S512x1
  slices_S512x15x128_o0_9_0_S512x1x128 : S512x15x128.Slices ![0, 9, 0] S512x1x128
  slices_S512x15_o0_9_S512x1 : S512x15.Slices ![0, 9] S512x1
  slices_S512x15x128_o0_10_0_S512x1x128 : S512x15x128.Slices ![0, 10, 0] S512x1x128
  slices_S512x15_o0_10_S512x1 : S512x15.Slices ![0, 10] S512x1
  slices_S512x15x128_o0_11_0_S512x1x128 : S512x15x128.Slices ![0, 11, 0] S512x1x128
  slices_S512x15_o0_11_S512x1 : S512x15.Slices ![0, 11] S512x1
  slices_S512x15x128_o0_12_0_S512x1x128 : S512x15x128.Slices ![0, 12, 0] S512x1x128
  slices_S512x15_o0_12_S512x1 : S512x15.Slices ![0, 12] S512x1
  concatenates_S512x128_S512x128_S512x128_S512x128_S512x128_S512x128_S512x128_S512x128_S512x128_S512x128_S512x128_S512x128_S512x128_S512x128_S512x1792_d1 : Shape.Concatenates [S512x128, S512x128, S512x128, S512x128, S512x128, S512x128, S512x128, S512x128, S512x128, S512x128, S512x128, S512x128, S512x128, S512x128] S512x1792 1
  inb_S512x1792_S512x1792_0_0 : ∀ a, (![0, 0] : Fin 2 → Nat) a + S512x1792.size a ≤ S512x1792.size a
  h_S512x1792 : 0 < S512x1792.numel
  shapeCasts_S65536x1792_S65536x14x128 : S65536x1792.ShapeCasts S65536x14x128
  dot_S512x128_S896x128_S512x896_1_1_0_0_n_n_wf : DotDims.WF S512x128 S896x128 S512x896 [1] [1] [0] [0] [] []
  dot_S512x128_S128x128_S512x128_1_1_0_0_n_n_wf : DotDims.WF S512x128 S128x128 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x896.size a ≤ S65536x896.size a
  hwx0_0 : ∀ i : grid0.Coords, EltTy.bits .f32 = 32 ∨ (Rect.block (s := S65536x896) S512x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S65536x128.size a
  hwx0_1 : ∀ i : grid0.Coords, EltTy.bits .f32 = 32 ∨ (Rect.block (s := S65536x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S65536x128.size a
  hwx0_2 : ∀ i : grid0.Coords, EltTy.bits .f32 = 32 ∨ (Rect.block (s := S65536x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x15x128.size a ≤ S65536x15x128.size a
  hwx0_3 : ∀ i : grid0.Coords, EltTy.bits .f32 = 32 ∨ (Rect.block (s := S65536x15x128) S512x15x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x15.size a ≤ S65536x15.size a
  hwx0_4 : ∀ i : grid0.Coords, EltTy.bits .f32 = 32 ∨ (Rect.block (s := S65536x15) S512x15.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S896x128.size a ≤ S896x128.size a
  hwx0_5 : ∀ i : grid0.Coords, EltTy.bits .bf16 = 32 ∨ (Rect.block (s := S896x128) S896x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x896.size a ≤ S1x896.size a
  hwx0_6 : ∀ i : grid0.Coords, EltTy.bits .f32 = 32 ∨ (Rect.block (s := S1x896) S1x896.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S896x128.size a ≤ S896x128.size a
  hwx0_7 : ∀ i : grid0.Coords, EltTy.bits .bf16 = 32 ∨ (Rect.block (s := S896x128) S896x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x896.size a ≤ S1x896.size a
  hwx0_8 : ∀ i : grid0.Coords, EltTy.bits .f32 = 32 ∨ (Rect.block (s := S1x896) S1x896.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1792.size a ≤ S65536x1792.size a
  hwx0_10 : ∀ i : grid0.Coords, EltTy.bits .f32 = 32 ∨ (Rect.block (s := S65536x1792) S512x1792.size (cc0_transform_10 i) (hinb0_10 i)).WholeWords (EltTy.packing .f32)

variable [Facts₀]

def dot_S512x128_S896x128_S512x896_1_1_0_0_n_n : DotDims S512x128 S896x128 S512x896 where
  lhsContracting := [1]
  rhsContracting := [1]
  lhsNonContracting := [0]
  rhsNonContracting := [0]
  lhsBatch := []
  rhsBatch := []
  wf := dot_S512x128_S896x128_S512x896_1_1_0_0_n_n_wf
def dot_S512x128_S128x128_S512x128_1_1_0_0_n_n : DotDims S512x128 S128x128 S512x128 where
  lhsContracting := [1]
  rhsContracting := [1]
  lhsNonContracting := [0]
  rhsNonContracting := [0]
  lhsBatch := []
  rhsBatch := []
  wf := dot_S512x128_S128x128_S512x128_1_1_0_0_n_n_wf

abbrev win0_0 : Pipeline.Window sig grid0 :=
  Pipeline.Window.ofSpec (Memref.whole main_arg0) S512x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x15x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x15.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S896x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x896.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S896x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x896.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S512x1792.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x896 : Shape := ⟨2, ![65536, 896]⟩
abbrev S65536x128 : Shape := ⟨2, ![65536, 128]⟩
abbrev S65536x15x128 : Shape := ⟨3, ![65536, 15, 128]⟩
abbrev S65536x15 : Shape := ⟨2, ![65536, 15]⟩
abbrev S896x128 : Shape := ⟨2, ![896, 128]⟩
abbrev S896 : Shape := ⟨1, ![896]⟩
abbrev S128x128 : Shape := ⟨2, ![128, 128]⟩
abbrev S128x896 : Shape := ⟨2, ![128, 896]⟩
abbrev S1x896 : Shape := ⟨2, ![1, 896]⟩
abbrev S_ : Shape := ⟨0, ![]⟩
abbrev S65536x7x128 : Shape := ⟨3, ![65536, 7, 128]⟩
abbrev S65536x1x128 : Shape := ⟨3, ![65536, 1, 128]⟩
abbrev S65536x3x128 : Shape := ⟨3, ![65536, 3, 128]⟩
abbrev S65536x3 : Shape := ⟨2, ![65536, 3]⟩
abbrev S65536x3x1 : Shape := ⟨3, ![65536, 3, 1]⟩
abbrev S65536x5x128 : Shape := ⟨3, ![65536, 5, 128]⟩
abbrev S65536x5 : Shape := ⟨2, ![65536, 5]⟩
abbrev S65536x5x1 : Shape := ⟨3, ![65536, 5, 1]⟩
abbrev S65536x14x128 : Shape := ⟨3, ![65536, 14, 128]⟩

abbrev nBuf : Space → Nat
  | .hbm => 91
  | .vmem => 0
  | .smem => 0
  | _ => 0

abbrev bufTy : (tb : Table) → Fin (tcTables nBuf tb) → BufTy
  | .hbm, ⟨0, _⟩ => ⟨S65536x896, .f32⟩
  | .hbm, ⟨1, _⟩ => ⟨S65536x128, .f32⟩
  | .hbm, ⟨2, _⟩ => ⟨S65536x128, .f32⟩
  | .hbm, ⟨3, _⟩ => ⟨S65536x15x128, .f32⟩
  | .hbm, ⟨4, _⟩ => ⟨S65536x15, .f32⟩
  | .hbm, ⟨5, _⟩ => ⟨S896x128, .f32⟩
  | .hbm, ⟨6, _⟩ => ⟨S896, .f32⟩
  | .hbm, ⟨7, _⟩ => ⟨S896x128, .f32⟩
  | .hbm, ⟨8, _⟩ => ⟨S896, .f32⟩
  | .hbm, ⟨9, _⟩ => ⟨S128x128, .f32⟩
  | .hbm, ⟨10, _⟩ => ⟨S128x896, .f32⟩
  | .hbm, ⟨11, _⟩ => ⟨S65536x896, .f32⟩
  | .hbm, ⟨12, _⟩ => ⟨S1x896, .f32⟩
  | .hbm, ⟨13, _⟩ => ⟨S65536x896, .f32⟩
  | .hbm, ⟨14, _⟩ => ⟨S65536x896, .f32⟩
  | .hbm, ⟨15, _⟩ => ⟨S128x896, .f32⟩
  | .hbm, ⟨16, _⟩ => ⟨S65536x896, .f32⟩
  | .hbm, ⟨17, _⟩ => ⟨S1x896, .f32⟩
  | .hbm, ⟨18, _⟩ => ⟨S65536x896, .f32⟩
  | .hbm, ⟨19, _⟩ => ⟨S65536x896, .f32⟩
  | .hbm, ⟨20, _⟩ => ⟨S65536x896, .f32⟩
  | .hbm, ⟨21, _⟩ => ⟨S65536x896, .f32⟩
  | .hbm, ⟨22, _⟩ => ⟨S_, .f32⟩
  | .hbm, ⟨23, _⟩ => ⟨S65536x896, .f32⟩
  | .hbm, ⟨24, _⟩ => ⟨S65536x896, .f32⟩
  | .hbm, ⟨25, _⟩ => ⟨S_, .f32⟩
  | .hbm, ⟨26, _⟩ => ⟨S65536x896, .f32⟩
  | .hbm, ⟨27, _⟩ => ⟨S65536x896, .f32⟩
  | .hbm, ⟨28, _⟩ => ⟨S65536x896, .f32⟩
  | .hbm, ⟨29, _⟩ => ⟨S65536x896, .f32⟩
  | .hbm, ⟨30, _⟩ => ⟨S65536x896, .f32⟩
  | .hbm, ⟨31, _⟩ => ⟨S65536x7x128, .f32⟩
  | .hbm, ⟨32, _⟩ => ⟨S65536x1x128, .f32⟩
  | .hbm, ⟨33, _⟩ => ⟨S65536x128, .f32⟩
  | .hbm, ⟨34, _⟩ => ⟨S65536x128, .f32⟩
  | .hbm, ⟨35, _⟩ => ⟨S65536x128, .f32⟩
  | .hbm, ⟨36, _⟩ => ⟨S_, .f32⟩
  | .hbm, ⟨37, _⟩ => ⟨S65536x128, .f32⟩
  | .hbm, ⟨38, _⟩ => ⟨S65536x128, .f32⟩
  | .hbm, ⟨39, _⟩ => ⟨S_, .f32⟩
  | .hbm, ⟨40, _⟩ => ⟨S65536x128, .f32⟩
  | .hbm, ⟨41, _⟩ => ⟨S65536x128, .f32⟩
  | .hbm, ⟨42, _⟩ => ⟨S65536x128, .f32⟩
  | .hbm, ⟨43, _⟩ => ⟨S65536x1x128, .f32⟩
  | .hbm, ⟨44, _⟩ => ⟨S65536x15x128, .f32⟩
  | .hbm, ⟨45, _⟩ => ⟨S65536x3x128, .f32⟩
  | .hbm, ⟨46, _⟩ => ⟨S65536x3, .f32⟩
  | .hbm, ⟨47, _⟩ => ⟨S65536x3x1, .f32⟩
  | .hbm, ⟨48, _⟩ => ⟨S65536x1x128, .f32⟩
  | .hbm, ⟨49, _⟩ => ⟨S65536x128, .f32⟩
  | .hbm, ⟨50, _⟩ => ⟨S65536x1x128, .f32⟩
  | .hbm, ⟨51, _⟩ => ⟨S65536x1x128, .f32⟩
  | .hbm, ⟨52, _⟩ => ⟨S65536x128, .f32⟩
  | .hbm, ⟨53, _⟩ => ⟨S65536x1x128, .f32⟩
  | .hbm, ⟨54, _⟩ => ⟨S65536x3x128, .f32⟩
  | .hbm, ⟨55, _⟩ => ⟨S65536x3x128, .f32⟩
  | .hbm, ⟨56, _⟩ => ⟨S65536x3x128, .f32⟩
  | .hbm, ⟨57, _⟩ => ⟨S65536x3x128, .f32⟩
  | .hbm, ⟨58, _⟩ => ⟨S65536x3x128, .f32⟩
  | .hbm, ⟨59, _⟩ => ⟨S65536x3x128, .f32⟩
  | .hbm, ⟨60, _⟩ => ⟨S65536x5x128, .f32⟩
  | .hbm, ⟨61, _⟩ => ⟨S65536x5, .f32⟩
  | .hbm, ⟨62, _⟩ => ⟨S65536x5x1, .f32⟩
  | .hbm, ⟨63, _⟩ => ⟨S65536x1x128, .f32⟩
  | .hbm, ⟨64, _⟩ => ⟨S65536x128, .f32⟩
  | .hbm, ⟨65, _⟩ => ⟨S65536x1x128, .f32⟩
  | .hbm, ⟨66, _⟩ => ⟨S65536x1x128, .f32⟩
  | .hbm, ⟨67, _⟩ => ⟨S65536x128, .f32⟩
  | .hbm, ⟨68, _⟩ => ⟨S65536x1x128, .f32⟩
  | .hbm, ⟨69, _⟩ => ⟨S65536x5x128, .f32⟩
  | .hbm, ⟨70, _⟩ => ⟨S65536x5x128, .f32⟩
  | .hbm, ⟨71, _⟩ => ⟨S65536x5x128, .f32⟩
  | .hbm, ⟨72, _⟩ => ⟨S65536x5x128, .f32⟩
  | .hbm, ⟨73, _⟩ => ⟨S65536x5x128, .f32⟩
  | .hbm, ⟨74, _⟩ => ⟨S65536x5x128, .f32⟩
  | .hbm, ⟨75, _⟩ => ⟨S65536x5x128, .f32⟩
  | .hbm, ⟨76, _⟩ => ⟨S65536x5, .f32⟩
  | .hbm, ⟨77, _⟩ => ⟨S65536x5x1, .f32⟩
  | .hbm, ⟨78, _⟩ => ⟨S65536x1x128, .f32⟩
  | .hbm, ⟨79, _⟩ => ⟨S65536x128, .f32⟩
  | .hbm, ⟨80, _⟩ => ⟨S65536x1x128, .f32⟩
  | .hbm, ⟨81, _⟩ => ⟨S65536x1x128, .f32⟩
  | .hbm, ⟨82, _⟩ => ⟨S65536x128, .f32⟩
  | .hbm, ⟨83, _⟩ => ⟨S65536x1x128, .f32⟩
  | .hbm, ⟨84, _⟩ => ⟨S65536x5x128, .f32⟩
  | .hbm, ⟨85, _⟩ => ⟨S65536x5x128, .f32⟩
  | .hbm, ⟨86, _⟩ => ⟨S65536x5x128, .f32⟩
  | .hbm, ⟨87, _⟩ => ⟨S65536x5x128, .f32⟩
  | .hbm, ⟨88, _⟩ => ⟨S65536x5x128, .f32⟩
  | .hbm, ⟨89, _⟩ => ⟨S65536x5x128, .f32⟩
  | .hbm, ⟨90, _⟩ => ⟨S65536x14x128, .f32⟩
  | _, _ => ⟨S65536x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_cst : Ref sig .tc := ⟨.hbm, 36, rfl⟩
abbrev main_call1_v2 : Ref sig .tc := ⟨.hbm, 37, rfl⟩
abbrev main_call1_v3 : Ref sig .tc := ⟨.hbm, 38, rfl⟩
abbrev main_call1_cst_0 : Ref sig .tc := ⟨.hbm, 39, rfl⟩
abbrev main_call1_v4 : Ref sig .tc := ⟨.hbm, 40, rfl⟩
abbrev main_call1_v5 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  transposes_S896x128_S128x896_1_0 : S896x128.Transposes [1, 0] S128x896
  bcast_S896_S1x896_1 : S896.BroadcastsInDim S1x896 (![1] : Fin 1 → Fin S1x896.rank)
  bcast_S1x896_S65536x896_0_1 : S1x896.BroadcastsInDim S65536x896 (![0, 1] : Fin 2 → Fin S65536x896.rank)
  bcast_S_S65536x896 : S_.BroadcastsInDim S65536x896 (![] : Fin 0 → Fin S65536x896.rank)
  shapeCasts_S65536x896_S65536x7x128 : S65536x896.ShapeCasts S65536x7x128
  slices_S65536x7x128_S65536x1x128_0_0_0 : S65536x7x128.Slices ![0, 0, 0] S65536x1x128
  shapeCasts_S65536x1x128_S65536x128 : S65536x1x128.ShapeCasts S65536x128
  bcast_S_S65536x128 : S_.BroadcastsInDim S65536x128 (![] : Fin 0 → Fin S65536x128.rank)
  bcast_S65536x128_S65536x1x128_0_2 : S65536x128.BroadcastsInDim S65536x1x128 (![0, 2] : Fin 2 → Fin S65536x1x128.rank)
  slices_S65536x15x128_S65536x3x128_0_0_0 : S65536x15x128.Slices ![0, 0, 0] S65536x3x128
  slices_S65536x15_S65536x3_0_0 : S65536x15.Slices ![0, 0] S65536x3
  bcast_S65536x3_S65536x3x1_0_1 : S65536x3.BroadcastsInDim S65536x3x1 (![0, 1] : Fin 2 → Fin S65536x3x1.rank)
  slices_S65536x7x128_S65536x1x128_0_1_0 : S65536x7x128.Slices ![0, 1, 0] S65536x1x128
  slices_S65536x7x128_S65536x1x128_0_4_0 : S65536x7x128.Slices ![0, 4, 0] S65536x1x128
  bcast_S65536x1x128_S65536x3x128_0_1_2 : S65536x1x128.BroadcastsInDim S65536x3x128 (![0, 1, 2] : Fin 3 → Fin S65536x3x128.rank)
  bcast_S65536x3x1_S65536x3x128_0_1_2 : S65536x3x1.BroadcastsInDim S65536x3x128 (![0, 1, 2] : Fin 3 → Fin S65536x3x128.rank)
  slices_S65536x15x128_S65536x5x128_0_3_0 : S65536x15x128.Slices ![0, 3, 0] S65536x5x128
  slices_S65536x15_S65536x5_0_3 : S65536x15.Slices ![0, 3] S65536x5
  bcast_S65536x5_S65536x5x1_0_1 : S65536x5.BroadcastsInDim S65536x5x1 (![0, 1] : Fin 2 → Fin S65536x5x1.rank)
  slices_S65536x7x128_S65536x1x128_0_2_0 : S65536x7x128.Slices ![0, 2, 0] S65536x1x128
  slices_S65536x7x128_S65536x1x128_0_5_0 : S65536x7x128.Slices ![0, 5, 0] S65536x1x128
  bcast_S65536x1x128_S65536x5x128_0_1_2 : S65536x1x128.BroadcastsInDim S65536x5x128 (![0, 1, 2] : Fin 3 → Fin S65536x5x128.rank)
  bcast_S65536x5x1_S65536x5x128_0_1_2 : S65536x5x1.BroadcastsInDim S65536x5x128 (![0, 1, 2] : Fin 3 → Fin S65536x5x128.rank)
  slices_S65536x15x128_S65536x5x128_0_8_0 : S65536x15x128.Slices ![0, 8, 0] S65536x5x128
  slices_S65536x15_S65536x5_0_8 : S65536x15.Slices ![0, 8] S65536x5
  slices_S65536x7x128_S65536x1x128_0_3_0 : S65536x7x128.Slices ![0, 3, 0] S65536x1x128
  slices_S65536x7x128_S65536x1x128_0_6_0 : S65536x7x128.Slices ![0, 6, 0] S65536x1x128
  concatenates_S65536x1x128_S65536x3x128_S65536x5x128_S65536x5x128_S65536x14x128_d1 : Shape.Concatenates [S65536x1x128, S65536x3x128, S65536x5x128, S65536x5x128] S65536x14x128 1
  dot_S65536x128_S128x896_S65536x896_1_0_0_1_n_n_wf : DotDims.WF S65536x128 S128x896 S65536x896 [1] [0] [0] [1] [] []
  dot_S65536x15x128_S128x128_S65536x15x128_2_1_01_0_n_n_wf : DotDims.WF S65536x15x128 S128x128 S65536x15x128 [2] [1] [0, 1] [0] [] []

variable [Facts₀]

def dot_S65536x128_S128x896_S65536x896_1_0_0_1_n_n : DotDims S65536x128 S128x896 S65536x896 where
  lhsContracting := [1]
  rhsContracting := [0]
  lhsNonContracting := [0]
  rhsNonContracting := [1]
  lhsBatch := []
  rhsBatch := []
  wf := dot_S65536x128_S128x896_S65536x896_1_0_0_1_n_n_wf
def dot_S65536x15x128_S128x128_S65536x15x128_2_1_01_0_n_n : DotDims S65536x15x128 S128x128 S65536x15x128 where
  lhsContracting := [2]
  rhsContracting := [1]
  lhsNonContracting := [0, 1]
  rhsNonContracting := [0]
  lhsBatch := []
  rhsBatch := []
  wf := dot_S65536x15x128_S128x128_S65536x15x128_2_1_01_0_n_n_wf

class Facts : Prop extends Facts₀ where

variable [Facts]
-- ==== Proof.RowSpec.lean ====
/-
  The gated value activation of one edge, as a function of that edge's rows.

  For one edge the inputs are a row a of 896 attention values, two rows t and h of 128 features, fifteen rows X d of
  128 neighbour features and fifteen radial weights rl d; the parameters are two 896 x 128 matrices with their biases
  and one 128 x 128 matrix. The 896 combined values are
      o n = a n + (t . Wrs n + brs n) * silu (h . Wg n + bg n),        silu x = x * logistic x,
  read as seven slabs of 128 channels: o (k * 128 + c). The output has fourteen slabs of 128 channels: slab 0 is
  silu of slab 0 of o, and slab 1 + d, for the thirteen degrees d = 0 .. 12, is
      o (slab 1 + g, c) * rl d + o (slab 4 + g, c) * (X d . xjw c)
  where g is the order of the degree: 0 for d < 3, 1 for d < 8, 2 for the rest. Nothing in an edge's output depends
  on another edge, which is why the edges may be processed in any tiling.
-/
import Idealize.ShloMosaic.PureOps.Ideal
import Mathlib.Algebra.BigOperators.Fin

noncomputable section

open scoped BigOperators

namespace Cert.EdgeRow

open Idealize.ShloMosaic

/-- x times the logistic of x, on the extended reals. -/
def silu (x : EReal) : EReal := x * Ideal.logistic x

/-- The product of two rows: the sum of the products of their entries. -/
def dotRow {K : Nat} (u v : Fin K → EReal) : EReal := ∑ k : Fin K, u k * v k

/-- The combined value of channel n: the attention value plus the gated edge term. -/
def combRow (a : Fin 896 → EReal) (t h : Fin 128 → EReal) (Wrs Wg : Fin 896 → Fin 128 → EReal)
    (brs bg : Fin 896 → EReal) (n : Fin 896) : EReal :=
  a n + (dotRow t (Wrs n) + brs n) * silu (dotRow h (Wg n) + bg n)

/-- Channel c of slab k of the 896 combined values. -/
def col (k : Fin 7) (c : Fin 128) : Fin 896 := ⟨k.val * 128 + c.val, by have := k.isLt; have := c.isLt; omega⟩

/-- Channel c of the output slab of degree d, whose order is g. -/
def degree (o : Fin 896 → EReal) (X : Fin 15 → Fin 128 → EReal) (rl : Fin 15 → EReal)
    (xjw : Fin 128 → Fin 128 → EReal) (kd kt : Fin 7) (d : Fin 15) (c : Fin 128) : EReal :=
  o (col kd c) * rl d + o (col kt c) * dotRow (X d) (xjw c)

/-- The fourteen output slabs of one edge. -/
def rowOut (o : Fin 896 → EReal) (X : Fin 15 → Fin 128 → EReal) (rl : Fin 15 → EReal)
    (xjw : Fin 128 → Fin 128 → EReal) (s : Fin 14) (c : Fin 128) : EReal :=
  match s with
  | ⟨0, _⟩ => silu (o (col 0 c))
  | ⟨1, _⟩ => degree o X rl xjw 1 4 0 c
  | ⟨2, _⟩ => degree o X rl xjw 1 4 1 c
  | ⟨3, _⟩ => degree o X rl xjw 1 4 2 c
  | ⟨4, _⟩ => degree o X rl xjw 2 5 3 c
  | ⟨5, _⟩ => degree o X rl xjw 2 5 4 c
  | ⟨6, _⟩ => degree o X rl xjw 2 5 5 c
  | ⟨7, _⟩ => degree o X rl xjw 2 5 6 c
  | ⟨8, _⟩ => degree o X rl xjw 2 5 7 c
  | ⟨9, _⟩ => degree o X rl xjw 3 6 8 c
  | ⟨10, _⟩ => degree o X rl xjw 3 6 9 c
  | ⟨11, _⟩ => degree o X rl xjw 3 6 10 c
  | ⟨12, _⟩ => degree o X rl xjw 3 6 11 c
  | ⟨13, _⟩ => degree o X rl xjw 3 6 12 c
  | ⟨_ + 14, h⟩ => absurd h (by omega)

end Cert.EdgeRow

end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibColumns.lean ====
/-
  Columns of a matrix, read at an index.

  A matrix [a, b] is cut into columns [a, 1] by unit-width slices, a column is flattened to a vector [a], and
  columns are joined side by side into a matrix again; one axis up, slabs [a, 1, c] are stacked along the middle
  axis into [a, b, c]. Each lemma reads one of these steps at an index given by its coordinates, for any extents
  and any element type: flattening a column keeps its rows, a unit-width slice at offset o is column o, and the
  piece of a side-by-side join of unit-width pieces that holds coordinate q of the joined axis is piece q.
-/
import Idealize.ShloMosaic.Lib.Pipeline.Value
import Idealize.ShloMosaic.Lib.ValueIdx

noncomputable section

namespace Cert.Lib.Columns

open Idealize.ShloMosaic Idealize.ShloMosaic.ValueIdx

variable {α : Type}

/-- A column flattened [a, 1] → [a]: element p of the vector is row p of the column. -/
theorem colAsVec_apply {a : Nat} (col : (⟨2, ![a, 1]⟩ : Shape).Idx → α)
    (h : (⟨2, ![a, 1]⟩ : Shape).ShapeCasts ⟨1, ![a]⟩) (p : Fin a) :
    shapeCast ⟨1, ![a]⟩ col h (ix1 p) = col (ix2 p (0 : Fin 1)) := by
  refine shapeCast_apply col h (ix1 p) (ix2 p (0 : Fin 1)) ?_
  rw [Shape.rowMajor_val_one, Shape.rowMajor_val_two]
  show p.val * 1 + 0 = p.val
  omega

/-- The unit-width slice of a matrix [a, b] at column offset o: row p of it is entry (p, o) of the matrix. -/
theorem sliceCol_apply {a b : Nat} (o : Nat) (X : (⟨2, ![a, b]⟩ : Shape).Idx → α)
    (h : (⟨2, ![a, b]⟩ : Shape).Slices ![0, o] ⟨2, ![a, 1]⟩) (p : Fin a) (q : Fin b) (hq : q.val = o) :
    extractStridedSlice ⟨2, ![a, 1]⟩ ![0, o] X h (ix2 p (0 : Fin 1)) = X (ix2 p q) :=
  extractStridedSlice_apply _ _ _ _ _ (fun ax => by
    match ax with
    | ⟨0, _⟩ => exact (Nat.zero_add _).symm
    | ⟨1, _⟩ => show q.val = o + 0; omega)

/-- Column o of a matrix as a vector: element p is entry (p, o). -/
theorem colVec_apply {a b : Nat} (o : Nat) (X : (⟨2, ![a, b]⟩ : Shape).Idx → α)
    (h : (⟨2, ![a, b]⟩ : Shape).Slices ![0, o] ⟨2, ![a, 1]⟩)
    (hc : (⟨2, ![a, 1]⟩ : Shape).ShapeCasts ⟨1, ![a]⟩) (p : Fin a) (q : Fin b) (hq : q.val = o) :
    shapeCast ⟨1, ![a]⟩ (extractStridedSlice ⟨2, ![a, 1]⟩ ![0, o] X h) hc (ix1 p) = X (ix2 p q) :=
  (colAsVec_apply _ hc p).trans (sliceCol_apply o X h p q hq)

/-- Columns joined side by side into a matrix [a, b]: entry (p, q) is row p of the piece at position q, when every
    piece before it has width one (the widths before position q sum to q). -/
theorem joinCols_apply {a b : Nat} (xs : List ((s : Shape) × (s.Idx → α)))
    (h : Shape.Concatenates (xs.map (·.1)) ⟨2, ![a, b]⟩ (1 : Fin 2)) (p : Fin a) (q : Fin b)
    (hk : q.val < xs.length) (col : (⟨2, ![a, 1]⟩ : Shape).Idx → α) (hxk : xs[q.val] = ⟨⟨2, ![a, 1]⟩, col⟩)
    (hpre : (((xs.take q.val).map (·.1)).map fun s =>
      if h : s.rank = (⟨2, ![a, b]⟩ : Shape).rank then s.size ((1 : Fin 2).cast h.symm) else 0).sum = q.val) :
    concatenate ⟨2, ![a, b]⟩ (1 : Fin 2) xs h (ix2 p q) = col (ix2 p (0 : Fin 1)) :=
  concatenate_apply_piece (1 : Fin 2) xs h (ix2 p q) q.val hk ⟨2, ![a, 1]⟩ col hxk rfl q.val hpre (ix2 p (0 : Fin 1))
    (fun d hd => match d with
      | ⟨0, _⟩ => rfl
      | ⟨1, _⟩ => absurd (Fin.ext rfl) hd)
    (by show q.val + 0 = q.val; omega)

/-- Slabs [a, 1, c] stacked along the middle axis into [a, b, c]: entry (p, q, r) is entry (p, 0, r) of the piece at
    position q, when every piece before it has thickness one. -/
theorem joinSlabs_apply {a b c : Nat} (xs : List ((s : Shape) × (s.Idx → α)))
    (h : Shape.Concatenates (xs.map (·.1)) ⟨3, ![a, b, c]⟩ (1 : Fin 3)) (p : Fin a) (q : Fin b) (r : Fin c)
    (hk : q.val < xs.length) (slab : (⟨3, ![a, 1, c]⟩ : Shape).Idx → α) (hxk : xs[q.val] = ⟨⟨3, ![a, 1, c]⟩, slab⟩)
    (hpre : (((xs.take q.val).map (·.1)).map fun s =>
      if h : s.rank = (⟨3, ![a, b, c]⟩ : Shape).rank then s.size ((1 : Fin 3).cast h.symm) else 0).sum = q.val) :
    concatenate ⟨3, ![a, b, c]⟩ (1 : Fin 3) xs h (ix3 p q r) = slab (ix3 p (0 : Fin 1) r) :=
  concatenate_apply_piece (1 : Fin 3) xs h (ix3 p q r) q.val hk ⟨3, ![a, 1, c]⟩ slab hxk rfl q.val hpre
    (ix3 p (0 : Fin 1) r)
    (fun d hd => match d with
      | ⟨0, _⟩ => rfl
      | ⟨1, _⟩ => absurd (Fin.ext rfl) hd
      | ⟨2, _⟩ => rfl)
    (by show q.val + 0 = q.val; omega)

end Cert.Lib.Columns

end
-- ==== Proof.BlockEntry.lean ====
/-
  One block of the kernel's output, entry by entry.

  A block holds 512 edges. Its 896 combined values per edge are the attention block plus the gated term: two products of
  a 512 x 128 block with the rows of a 896 x 128 weight matrix, each with its bias row added, the second passed through
  x * logistic x and multiplied into the first. Reading such a product at entry (p, n) gives the sum over the 128
  features of row p of the block against row n of the weights; the bias row is read at column n whatever the edge. So the
  combined value of edge p and channel n is the edge's own combined value of the specification, computed from row p of
  each block.

  A degree's slab is, channel by channel, one slab of the combined values times the edge's radial weight of that degree
  plus another slab times the projection of the edge's neighbour row of that degree: row d of the 512 x 15 x 128 block is
  cut out, laid flat as 512 x 128, and multiplied against the rows of the 128 x 128 projection.
-/
import proofs.«152228_j50208167690483_2_alg».proof.Proof.Gen.KernelIdeal.Skeleton
import proofs.«152228_j50208167690483_2_alg».proof.Proof.RowSpec
import proofs.«152228_j50208167690483_2_alg».proof.Proof.LibMatmulRows
import proofs.«152228_j50208167690483_2_alg».proof.Proof.LibKeepdims
import proofs.«152228_j50208167690483_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockEntry

open Cert.KernelIdeal Cert.KernelIdeal.Gen Idealize.ShloMosaic Idealize.ShloMosaic.ValueIdx Cert.EdgeRow

/-- The logistic of a block, entry by entry. -/
theorem logistic_apply {s : Shape} {φ : FTy} (x : FVec Ideal s φ) (i : s.Idx) : logistic x i = Ideal.logistic (x i) := rfl

/-- A 512 x 128 block against the rows of a 896 x 128 matrix, into the zero accumulator, at entry (p, n). -/
theorem prod896_apply (l : FVec Ideal S512x128 .bf16) (r : FVec Ideal S896x128 .bf16) (p : Fin 512) (n : Fin 896) :
    matmul dot_S512x128_S896x128_S512x896_1_1_0_0_n_n none l r (constant S512x896 .f32 0x00000000#32) (ix2 p n)
      = ∑ k : Fin 128, l (ix2 p k) * r (ix2 n k) :=
  Cert.LibMatmulRows.matmul_zero_apply dot_S512x128_S896x128_S512x896_1_1_0_0_n_n_wf none l r p n

/-- A 512 x 128 block against the rows of a 128 x 128 matrix, into the zero accumulator, at entry (p, c). -/
theorem prod128_apply (l : FVec Ideal S512x128 .bf16) (r : FVec Ideal S128x128 .bf16) (p : Fin 512) (c : Fin 128) :
    matmul dot_S512x128_S128x128_S512x128_1_1_0_0_n_n none l r (constant S512x128 .f32 0x00000000#32) (ix2 p c)
      = ∑ k : Fin 128, l (ix2 p k) * r (ix2 c k) :=
  Cert.LibMatmulRows.matmul_zero_apply dot_S512x128_S128x128_S512x128_1_1_0_0_n_n_wf none l r p c

/-- A bias row laid under every edge of the block: entry (p, n) is the row's entry n. -/
theorem biasRow_apply (v : Vec Ideal S1x896 .f32) (p : Fin 512) (n : Fin 896) :
    broadcastTo S512x896 (shapeCast S1x896 v shapeCasts_S1x896_S1x896) broadcasts_S1x896_S512x896 (ix2 p n)
      = v (ix2 (0 : Fin 1) n) := by
  rw [shapeCast_self]
  exact broadcastTo_1b_ab_apply v broadcasts_S1x896_S512x896 p n

/-- The combined value of edge p and channel n of a block is the specification's, from row p of each block. -/
theorem combined_apply (v0 : Vec Ideal S512x128 .f32) (v2 : Vec Ideal S896x128 .bf16) (v5 : Vec Ideal S512x128 .f32)
    (v7 : Vec Ideal S896x128 .bf16) (v10 v12 : Vec Ideal S1x896 .f32) (v21 : Vec Ideal S512x896 .f32)
    (p : Fin 512) (n : Fin 896) :
    k0_pay3 v0 v2 v5 v7 v10 v12 v21 (ix2 p n)
      = combRow (fun n => v21 (ix2 p n)) (fun k => v0 (ix2 p k)) (fun k => v5 (ix2 p k))
          (fun n k => v2 (ix2 n k)) (fun n k => v7 (ix2 n k)) (fun n => v10 (ix2 (0 : Fin 1) n))
          (fun n => v12 (ix2 (0 : Fin 1) n)) n := by
  unfold k0_pay3 combRow silu dotRow
  rw [addf_apply, mulf_apply, addf_apply, mulf_apply, logistic_apply, addf_apply, prod896_apply, prod896_apply,
    biasRow_apply, biasRow_apply, shapeCast_self, shapeCast_self]
  rfl

/-- Row d of a 512 x 15 x 128 block laid flat: entry (p, k) is the block's entry (p, d, k). -/
theorem rowFlat_apply (X : Vec Ideal S512x15x128 .f32) (d : Nat) (hs : S512x15x128.Slices ![0, d, 0] S512x1x128)
    (dd : Fin 15) (hd : dd.val = d) (p : Fin 512) (k : Fin 128) :
    shapeCast S512x128 (extractStridedSlice S512x1x128 ![0, d, 0] X hs) shapeCasts_S512x1x128_S512x128 (ix2 p k)
      = X (ix3 p dd k) := by
  refine (shapeCast_apply _ shapeCasts_S512x1x128_S512x128 (ix2 p k) (ix3 p (0 : Fin 1) k) ?_).trans ?_
  · rw [Shape.rowMajor_val_three, Shape.rowMajor_val_two]
    show (p.val * 1 + 0) * 128 + k.val = p.val * 128 + k.val
    omega
  · exact slice3_axis1_apply d X hs p (0 : Fin 1) k dd (by show dd.val = d + 0; omega)

/-- Slab k of the 896 combined values of a block: entry (p, c) is the combined value of channel k * 128 + c. -/
theorem slab_apply (v22 : FVec Ideal S512x896 .f32) (o : Nat) (ho : S512x896.Slices ![0, o] S512x128) (k : Fin 7)
    (hk : k.val * 128 = o) (p : Fin 512) (c : Fin 128) :
    extractStridedSlice S512x128 ![0, o] v22 ho (ix2 p c) = v22 (ix2 p (col k c)) :=
  slice2_axis1_apply o v22 ho p c (col k c) (by show k.val * 128 + c.val = o + c.val; omega)

/-- The slab of the degree in row d of the neighbour block, entry (p, c): the specification's degree value for edge p,
    from the block's combined values, neighbour rows and radial weights of that edge. -/
theorem degreeSlab_apply (v22 : FVec Ideal S512x896 .f32) (X : Vec Ideal S512x15x128 .f32) (rl : Vec Ideal S512x15 .f32)
    (W : FVec Ideal S128x128 .bf16) (od ot d : Nat) (hod : S512x896.Slices ![0, od] S512x128)
    (hot : S512x896.Slices ![0, ot] S512x128) (hs : S512x15x128.Slices ![0, d, 0] S512x1x128)
    (hr : S512x15.Slices ![0, d] S512x1) (kd kt : Fin 7) (dd : Fin 15) (hkd : kd.val * 128 = od)
    (hkt : kt.val * 128 = ot) (hd : dd.val = d) (p : Fin 512) (c : Fin 128) :
    addf (mulf (extractStridedSlice S512x128 ![0, od] v22 hod)
            (broadcastTo S512x128 (extractStridedSlice S512x1 ![0, d] rl hr) broadcasts_S512x1_S512x128))
         (mulf (extractStridedSlice S512x128 ![0, ot] v22 hot)
            (matmul dot_S512x128_S128x128_S512x128_1_1_0_0_n_n none
              (truncf .bf16 (shapeCast S512x128 (extractStridedSlice S512x1x128 ![0, d, 0] X hs)
                shapeCasts_S512x1x128_S512x128) bitsLt_bf16_f32) W (constant S512x128 .f32 0x00000000#32))) (ix2 p c)
      = degree (fun n => v22 (ix2 p n)) (fun d k => X (ix3 p d k)) (fun d => rl (ix2 p d)) (fun c k => W (ix2 c k))
          kd kt dd c := by
  unfold degree dotRow
  rw [addf_apply, mulf_apply, mulf_apply, slab_apply v22 od hod kd hkd, slab_apply v22 ot hot kt hkt, prod128_apply,
    Cert.Lib.Keepdims.bcastCol_apply _ broadcasts_S512x1_S512x128 p c,
    Cert.Lib.Columns.sliceCol_apply d rl hr p dd hd]
  refine congrArg (fun z => v22 (ix2 p (col kd c)) * rl (ix2 p dd) + v22 (ix2 p (col kt c)) * z)
    (Finset.sum_congr rfl fun k _ => ?_)
  rw [truncf_apply, rowFlat_apply X d hs dd hd p k]

end Cert.KernelIdeal.BlockEntry

end
-- ==== Proof.BlockSlabs.lean ====
/-
  The fourteen slabs of a block side by side.

  The block's output is fourteen 512 x 128 pieces joined along the lanes into 512 x 1792: lane s * 128 + c of edge p is
  channel c of piece s. Piece 0 is x * logistic x of slab 0 of the combined values, and piece 1 + d is the slab of degree
  d. So the whole block, entry (p, s * 128 + c), is the specification's slab s, channel c, of edge p, computed from row p
  of each input block.
-/
import proofs.«152228_j50208167690483_2_alg».proof.Proof.Gen.KernelIdeal.Frame
import proofs.«152228_j50208167690483_2_alg».proof.Proof.BlockEntry

noncomputable section

open scoped BigOperators

namespace Cert.KernelIdeal.BlockSlabs

open Cert.KernelIdeal Cert.KernelIdeal.Gen Idealize.ShloMosaic Idealize.ShloMosaic.ValueIdx Cert.EdgeRow Cert.KernelIdeal.BlockEntry

/-! ## Lane s * 128 + c of the join is channel c of piece s -/

theorem joined_0 (P0 P1 P2 P3 P4 P5 P6 P7 P8 P9 P10 P11 P12 P13 : FVec Ideal S512x128 .f32) (p : Fin 512) (c : Fin 128) (q : Fin 1792)
    (hq : q.val = 0 * 128 + c.val) : k0_pay2 P0 P1 P2 P3 P4 P5 P6 P7 P8 P9 P10 P11 P12 P13 (ix2 p q) = P0 (ix2 p c) := by
  unfold k0_pay2
  exact concatenate_apply_piece (1 : Fin 2) _ _ (ix2 p q) 0 (by simp) S512x128 P0 rfl rfl (0 * 128) rfl (ix2 p c)
    (fun b hb => match b with
      | ⟨0, _⟩ => rfl
      | ⟨1, _⟩ => absurd (Fin.ext rfl) hb)
    (by show 0 * 128 + c.val = q.val; omega)

theorem joined_1 (P0 P1 P2 P3 P4 P5 P6 P7 P8 P9 P10 P11 P12 P13 : FVec Ideal S512x128 .f32) (p : Fin 512) (c : Fin 128) (q : Fin 1792)
    (hq : q.val = 1 * 128 + c.val) : k0_pay2 P0 P1 P2 P3 P4 P5 P6 P7 P8 P9 P10 P11 P12 P13 (ix2 p q) = P1 (ix2 p c) := by
  unfold k0_pay2
  exact concatenate_apply_piece (1 : Fin 2) _ _ (ix2 p q) 1 (by simp) S512x128 P1 rfl rfl (1 * 128) rfl (ix2 p c)
    (fun b hb => match b with
      | ⟨0, _⟩ => rfl
      | ⟨1, _⟩ => absurd (Fin.ext rfl) hb)
    (by show 1 * 128 + c.val = q.val; omega)

theorem joined_2 (P0 P1 P2 P3 P4 P5 P6 P7 P8 P9 P10 P11 P12 P13 : FVec Ideal S512x128 .f32) (p : Fin 512) (c : Fin 128) (q : Fin 1792)
    (hq : q.val = 2 * 128 + c.val) : k0_pay2 P0 P1 P2 P3 P4 P5 P6 P7 P8 P9 P10 P11 P12 P13 (ix2 p q) = P2 (ix2 p c) := by
  unfold k0_pay2
  exact concatenate_apply_piece (1 : Fin 2) _ _ (ix2 p q) 2 (by simp) S512x128 P2 rfl rfl (2 * 128) rfl (ix2 p c)
    (fun b hb => match b with
      | ⟨0, _⟩ => rfl
      | ⟨1, _⟩ => absurd (Fin.ext rfl) hb)
    (by show 2 * 128 + c.val = q.val; omega)

theorem joined_3 (P0 P1 P2 P3 P4 P5 P6 P7 P8 P9 P10 P11 P12 P13 : FVec Ideal S512x128 .f32) (p : Fin 512) (c : Fin 128) (q : Fin 1792)
    (hq : q.val = 3 * 128 + c.val) : k0_pay2 P0 P1 P2 P3 P4 P5 P6 P7 P8 P9 P10 P11 P12 P13 (ix2 p q) = P3 (ix2 p c) := by
  unfold k0_pay2
  exact concatenate_apply_piece (1 : Fin 2) _ _ (ix2 p q) 3 (by simp) S512x128 P3 rfl rfl (3 * 128) rfl (ix2 p c)
    (fun b hb => match b with
      | ⟨0, _⟩ => rfl
      | ⟨1, _⟩ => absurd (Fin.ext rfl) hb)
    (by show 3 * 128 + c.val = q.val; omega)

theorem joined_4 (P0 P1 P2 P3 P4 P5 P6 P7 P8 P9 P10 P11 P12 P13 : FVec Ideal S512x128 .f32) (p : Fin 512) (c : Fin 128) (q : Fin 1792)
    (hq : q.val = 4 * 128 + c.val) : k0_pay2 P0 P1 P2 P3 P4 P5 P6 P7 P8 P9 P10 P11 P12 P13 (ix2 p q) = P4 (ix2 p c) := by
  unfold k0_pay2
  exact concatenate_apply_piece (1 : Fin 2) _ _ (ix2 p q) 4 (by simp) S512x128 P4 rfl rfl (4 * 128) rfl (ix2 p c)
    (fun b hb => match b with
      | ⟨0, _⟩ => rfl
      | ⟨1, _⟩ => absurd (Fin.ext rfl) hb)
    (by show 4 * 128 + c.val = q.val; omega)

theorem joined_5 (P0 P1 P2 P3 P4 P5 P6 P7 P8 P9 P10 P11 P12 P13 : FVec Ideal S512x128 .f32) (p : Fin 512) (c : Fin 128) (q : Fin 1792)
    (hq : q.val = 5 * 128 + c.val) : k0_pay2 P0 P1 P2 P3 P4 P5 P6 P7 P8 P9 P10 P11 P12 P13 (ix2 p q) = P5 (ix2 p c) := by
  unfold k0_pay2
  exact concatenate_apply_piece (1 : Fin 2) _ _ (ix2 p q) 5 (by simp) S512x128 P5 rfl rfl (5 * 128) rfl (ix2 p c)
    (fun b hb => match b with
      | ⟨0, _⟩ => rfl
      | ⟨1, _⟩ => absurd (Fin.ext rfl) hb)
    (by show 5 * 128 + c.val = q.val; omega)

theorem joined_6 (P0 P1 P2 P3 P4 P5 P6 P7 P8 P9 P10 P11 P12 P13 : FVec Ideal S512x128 .f32) (p : Fin 512) (c : Fin 128) (q : Fin 1792)
    (hq : q.val = 6 * 128 + c.val) : k0_pay2 P0 P1 P2 P3 P4 P5 P6 P7 P8 P9 P10 P11 P12 P13 (ix2 p q) = P6 (ix2 p c) := by
  unfold k0_pay2
  exact concatenate_apply_piece (1 : Fin 2) _ _ (ix2 p q) 6 (by simp) S512x128 P6 rfl rfl (6 * 128) rfl (ix2 p c)
    (fun b hb => match b with
      | ⟨0, _⟩ => rfl
      | ⟨1, _⟩ => absurd (Fin.ext rfl) hb)
    (by show 6 * 128 + c.val = q.val; omega)

theorem joined_7 (P0 P1 P2 P3 P4 P5 P6 P7 P8 P9 P10 P11 P12 P13 : FVec Ideal S512x128 .f32) (p : Fin 512) (c : Fin 128) (q : Fin 1792)
    (hq : q.val = 7 * 128 + c.val) : k0_pay2 P0 P1 P2 P3 P4 P5 P6 P7 P8 P9 P10 P11 P12 P13 (ix2 p q) = P7 (ix2 p c) := by
  unfold k0_pay2
  exact concatenate_apply_piece (1 : Fin 2) _ _ (ix2 p q) 7 (by simp) S512x128 P7 rfl rfl (7 * 128) rfl (ix2 p c)
    (fun b hb => match b with
      | ⟨0, _⟩ => rfl
      | ⟨1, _⟩ => absurd (Fin.ext rfl) hb)
    (by show 7 * 128 + c.val = q.val; omega)

theorem joined_8 (P0 P1 P2 P3 P4 P5 P6 P7 P8 P9 P10 P11 P12 P13 : FVec Ideal S512x128 .f32) (p : Fin 512) (c : Fin 128) (q : Fin 1792)
    (hq : q.val = 8 * 128 + c.val) : k0_pay2 P0 P1 P2 P3 P4 P5 P6 P7 P8 P9 P10 P11 P12 P13 (ix2 p q) = P8 (ix2 p c) := by
  unfold k0_pay2
  exact concatenate_apply_piece (1 : Fin 2) _ _ (ix2 p q) 8 (by simp) S512x128 P8 rfl rfl (8 * 128) rfl (ix2 p c)
    (fun b hb => match b with
      | ⟨0, _⟩ => rfl
      | ⟨1, _⟩ => absurd (Fin.ext rfl) hb)
    (by show 8 * 128 + c.val = q.val; omega)

theorem joined_9 (P0 P1 P2 P3 P4 P5 P6 P7 P8 P9 P10 P11 P12 P13 : FVec Ideal S512x128 .f32) (p : Fin 512) (c : Fin 128) (q : Fin 1792)
    (hq : q.val = 9 * 128 + c.val) : k0_pay2 P0 P1 P2 P3 P4 P5 P6 P7 P8 P9 P10 P11 P12 P13 (ix2 p q) = P9 (ix2 p c) := by
  unfold k0_pay2
  exact concatenate_apply_piece (1 : Fin 2) _ _ (ix2 p q) 9 (by simp) S512x128 P9 rfl rfl (9 * 128) rfl (ix2 p c)
    (fun b hb => match b with
      | ⟨0, _⟩ => rfl
      | ⟨1, _⟩ => absurd (Fin.ext rfl) hb)
    (by show 9 * 128 + c.val = q.val; omega)

set_option maxHeartbeats 1600000 in
theorem joined_10 (P0 P1 P2 P3 P4 P5 P6 P7 P8 P9 P10 P11 P12 P13 : FVec Ideal S512x128 .f32) (p : Fin 512) (c : Fin 128) (q : Fin 1792)
    (hq : q.val = 10 * 128 + c.val) : k0_pay2 P0 P1 P2 P3 P4 P5 P6 P7 P8 P9 P10 P11 P12 P13 (ix2 p q) = P10 (ix2 p c) := by
  unfold k0_pay2
  exact concatenate_apply_piece (1 : Fin 2) _ _ (ix2 p q) 10 (by simp) S512x128 P10 rfl rfl (10 * 128) rfl (ix2 p c)
    (fun b hb => match b with
      | ⟨0, _⟩ => rfl
      | ⟨1, _⟩ => absurd (Fin.ext rfl) hb)
    (by show 10 * 128 + c.val = q.val; omega)

set_option maxHeartbeats 1600000 in
theorem joined_11 (P0 P1 P2 P3 P4 P5 P6 P7 P8 P9 P10 P11 P12 P13 : FVec Ideal S512x128 .f32) (p : Fin 512) (c : Fin 128) (q : Fin 1792)
    (hq : q.val = 11 * 128 + c.val) : k0_pay2 P0 P1 P2 P3 P4 P5 P6 P7 P8 P9 P10 P11 P12 P13 (ix2 p q) = P11 (ix2 p c) := by
  unfold k0_pay2
  exact concatenate_apply_piece (1 : Fin 2) _ _ (ix2 p q) 11 (by simp) S512x128 P11 rfl rfl (11 * 128) rfl (ix2 p c)
    (fun b hb => match b with
      | ⟨0, _⟩ => rfl
      | ⟨1, _⟩ => absurd (Fin.ext rfl) hb)
    (by show 11 * 128 + c.val = q.val; omega)

set_option maxHeartbeats 1600000 in
theorem joined_12 (P0 P1 P2 P3 P4 P5 P6 P7 P8 P9 P10 P11 P12 P13 : FVec Ideal S512x128 .f32) (p : Fin 512) (c : Fin 128) (q : Fin 1792)
    (hq : q.val = 12 * 128 + c.val) : k0_pay2 P0 P1 P2 P3 P4 P5 P6 P7 P8 P9 P10 P11 P12 P13 (ix2 p q) = P12 (ix2 p c) := by
  unfold k0_pay2
  exact concatenate_apply_piece (1 : Fin 2) _ _ (ix2 p q) 12 (by simp) S512x128 P12 rfl rfl (12 * 128) rfl (ix2 p c)
    (fun b hb => match b with
      | ⟨0, _⟩ => rfl
      | ⟨1, _⟩ => absurd (Fin.ext rfl) hb)
    (by show 12 * 128 + c.val = q.val; omega)

set_option maxHeartbeats 1600000 in
theorem joined_13 (P0 P1 P2 P3 P4 P5 P6 P7 P8 P9 P10 P11 P12 P13 : FVec Ideal S512x128 .f32) (p : Fin 512) (c : Fin 128) (q : Fin 1792)
    (hq : q.val = 13 * 128 + c.val) : k0_pay2 P0 P1 P2 P3 P4 P5 P6 P7 P8 P9 P10 P11 P12 P13 (ix2 p q) = P13 (ix2 p c) := by
  unfold k0_pay2
  exact concatenate_apply_piece (1 : Fin 2) _ _ (ix2 p q) 13 (by simp) S512x128 P13 rfl rfl (13 * 128) rfl (ix2 p c)
    (fun b hb => match b with
      | ⟨0, _⟩ => rfl
      | ⟨1, _⟩ => absurd (Fin.ext rfl) hb)
    (by show 13 * 128 + c.val = q.val; omega)

/-! ## The block -/

theorem hz2 : (![0, 0] : Fin 2 → Nat) = fun _ => 0 := funext fun a => by fin_cases a <;> rfl
theorem hz3 : (![0, 0, 0] : Fin 3 → Nat) = fun _ => 0 := funext fun a => by fin_cases a <;> rfl

/-- Piece 0, channel c of edge p: x * logistic x of the combined value of channel c of slab 0. -/
theorem head_apply (v0 : Vec Ideal S512x128 .f32) (v2 : Vec Ideal S896x128 .bf16) (v5 : Vec Ideal S512x128 .f32)
    (v7 : Vec Ideal S896x128 .bf16) (v10 v12 : Vec Ideal S1x896 .f32) (v21 : Vec Ideal S512x896 .f32)
    (p : Fin 512) (c : Fin 128) :
    k0_pay4 v0 v2 v5 v7 v10 v12 v21 (ix2 p c) = silu (k0_pay3 v0 v2 v5 v7 v10 v12 v21 (ix2 p (col 0 c))) := by
  unfold k0_pay4 silu
  rw [mulf_apply, logistic_apply, slab_apply _ 0 _ 0 rfl p c]

set_option maxHeartbeats 4000000 in
/-- What the body leaves in the output block, entry (p, s * 128 + c): slab s, channel c, of edge p's output, computed
    from row p of the attention, edge-feature, neighbour-feature and radial blocks and from the parameters. -/
theorem block_apply (x0 : Vec Ideal S512x896 .f32) (x1 x2 : Vec Ideal S512x128 .f32) (x3 : Vec Ideal S512x15x128 .f32)
    (x4 : Vec Ideal S512x15 .f32) (x5 : Vec Ideal S896x128 .bf16) (x6 : Vec Ideal S1x896 .f32)
    (x7 : Vec Ideal S896x128 .bf16) (x8 : Vec Ideal S1x896 .f32) (x9 : Vec Ideal S128x128 .bf16)
    (p : Fin 512) (s : Fin 14) (c : Fin 128) (q : Fin 1792) (hq : q.val = s.val * 128 + c.val) :
    out0_10 x0 x1 x2 x3 x4 x5 x6 x7 x8 x9 (ix2 p q)
      = rowOut (combRow (fun n => x0 (ix2 p n)) (fun k => x1 (ix2 p k)) (fun k => x2 (ix2 p k))
            (fun n k => x5 (ix2 n k)) (fun n k => x7 (ix2 n k)) (fun n => x6 (ix2 (0 : Fin 1) n))
            (fun n => x8 (ix2 (0 : Fin 1) n)))
          (fun d k => x3 (ix3 p d k)) (fun d => x4 (ix2 p d)) (fun c k => x9 (ix2 c k)) s c := by
  have hO : (fun n => k0_pay3 x1 x5 x2 x7 x6 x8 x0 (ix2 p n))
      = combRow (fun n => x0 (ix2 p n)) (fun k => x1 (ix2 p k)) (fun k => x2 (ix2 p k))
          (fun n k => x5 (ix2 n k)) (fun n k => x7 (ix2 n k)) (fun n => x6 (ix2 (0 : Fin 1) n))
          (fun n => x8 (ix2 (0 : Fin 1) n)) :=
    funext fun n => combined_apply x1 x5 x2 x7 x6 x8 x0 p n
  have hW : k0_pay5 x9 = x9 := by unfold k0_pay5; exact shapeCast_self _ _
  have hfin : ∀ (kd kt : Fin 7) (dd : Fin 15),
      degree (fun n => k0_pay3 x1 x5 x2 x7 x6 x8 x0 (ix2 p n)) (fun d k => x3 (ix3 p d k)) (fun d => x4 (ix2 p d))
          (fun c k => k0_pay5 x9 (ix2 c k)) kd kt dd c
        = degree (combRow (fun n => x0 (ix2 p n)) (fun k => x1 (ix2 p k)) (fun k => x2 (ix2 p k))
            (fun n k => x5 (ix2 n k)) (fun n k => x7 (ix2 n k)) (fun n => x6 (ix2 (0 : Fin 1) n))
            (fun n => x8 (ix2 (0 : Fin 1) n)))
          (fun d k => x3 (ix3 p d k)) (fun d => x4 (ix2 p d)) (fun c k => x9 (ix2 c k)) kd kt dd c := by
    intro kd kt dd; rw [hO, hW]
  unfold out0_10
  rw [View.canon_unit_zero hz2]
  simp only [View.ld_unit_zero (S := S512x128) hz2, View.ld_unit_zero (S := S896x128) hz2,
    View.ld_unit_zero (S := S1x896) hz2, View.ld_unit_zero (S := S512x896) hz2, View.ld_unit_zero (S := S512x15) hz2,
    View.ld_unit_zero (S := S128x128) hz2, View.ld_unit_zero (S := S512x15x128) hz3]
  fin_cases s
  · refine (joined_0 _ _ _ _ _ _ _ _ _ _ _ _ _ _ p c q hq).trans ?_
    refine (head_apply x1 x5 x2 x7 x6 x8 x0 p c).trans ?_
    exact congrArg silu (congrFun hO (col 0 c))
  · refine (joined_1 _ _ _ _ _ _ _ _ _ _ _ _ _ _ p c q hq).trans ?_
    unfold k0_pay9 k0_pay6 k0_pay7 k0_pay8
    exact (degreeSlab_apply (k0_pay3 x1 x5 x2 x7 x6 x8 x0) x3 x4 (k0_pay5 x9) 128 512 0 _ _ _ _ 1 4 0 rfl rfl rfl p c).trans
      (hfin 1 4 0)
  · refine (joined_2 _ _ _ _ _ _ _ _ _ _ _ _ _ _ p c q hq).trans ?_
    unfold k0_pay10 k0_pay6 k0_pay7
    exact (degreeSlab_apply (k0_pay3 x1 x5 x2 x7 x6 x8 x0) x3 x4 (k0_pay5 x9) 128 512 1 _ _ _ _ 1 4 1 rfl rfl rfl p c).trans
      (hfin 1 4 1)
  · refine (joined_3 _ _ _ _ _ _ _ _ _ _ _ _ _ _ p c q hq).trans ?_
    unfold k0_pay11 k0_pay6 k0_pay7
    exact (degreeSlab_apply (k0_pay3 x1 x5 x2 x7 x6 x8 x0) x3 x4 (k0_pay5 x9) 128 512 2 _ _ _ _ 1 4 2 rfl rfl rfl p c).trans
      (hfin 1 4 2)
  · refine (joined_4 _ _ _ _ _ _ _ _ _ _ _ _ _ _ p c q hq).trans ?_
    unfold k0_pay14 k0_pay12 k0_pay13
    exact (degreeSlab_apply (k0_pay3 x1 x5 x2 x7 x6 x8 x0) x3 x4 (k0_pay5 x9) 256 640 3 _ _ _ _ 2 5 3 rfl rfl rfl p c).trans
      (hfin 2 5 3)
  · refine (joined_5 _ _ _ _ _ _ _ _ _ _ _ _ _ _ p c q hq).trans ?_
    unfold k0_pay15 k0_pay12 k0_pay13
    exact (degreeSlab_apply (k0_pay3 x1 x5 x2 x7 x6 x8 x0) x3 x4 (k0_pay5 x9) 256 640 4 _ _ _ _ 2 5 4 rfl rfl rfl p c).trans
      (hfin 2 5 4)
  · refine (joined_6 _ _ _ _ _ _ _ _ _ _ _ _ _ _ p c q hq).trans ?_
    unfold k0_pay16 k0_pay12 k0_pay13
    exact (degreeSlab_apply (k0_pay3 x1 x5 x2 x7 x6 x8 x0) x3 x4 (k0_pay5 x9) 256 640 5 _ _ _ _ 2 5 5 rfl rfl rfl p c).trans
      (hfin 2 5 5)
  · refine (joined_7 _ _ _ _ _ _ _ _ _ _ _ _ _ _ p c q hq).trans ?_
    unfold k0_pay18 k0_pay12 k0_pay13 k0_pay17
    exact (degreeSlab_apply (k0_pay3 x1 x5 x2 x7 x6 x8 x0) x3 x4 (k0_pay5 x9) 256 640 6 _ _ _ _ 2 5 6 rfl rfl rfl p c).trans
      (hfin 2 5 6)
  · refine (joined_8 _ _ _ _ _ _ _ _ _ _ _ _ _ _ p c q hq).trans ?_
    unfold k0_pay19 k0_pay12 k0_pay13
    exact (degreeSlab_apply (k0_pay3 x1 x5 x2 x7 x6 x8 x0) x3 x4 (k0_pay5 x9) 256 640 7 _ _ _ _ 2 5 7 rfl rfl rfl p c).trans
      (hfin 2 5 7)
  · refine (joined_9 _ _ _ _ _ _ _ _ _ _ _ _ _ _ p c q hq).trans ?_
    unfold k0_pay22 k0_pay20 k0_pay21
    exact (degreeSlab_apply (k0_pay3 x1 x5 x2 x7 x6 x8 x0) x3 x4 (k0_pay5 x9) 384 768 8 _ _ _ _ 3 6 8 rfl rfl rfl p c).trans
      (hfin 3 6 8)
  · refine (joined_10 _ _ _ _ _ _ _ _ _ _ _ _ _ _ p c q hq).trans ?_
    unfold k0_pay23 k0_pay20 k0_pay21
    exact (degreeSlab_apply (k0_pay3 x1 x5 x2 x7 x6 x8 x0) x3 x4 (k0_pay5 x9) 384 768 9 _ _ _ _ 3 6 9 rfl rfl rfl p c).trans
      (hfin 3 6 9)
  · refine (joined_11 _ _ _ _ _ _ _ _ _ _ _ _ _ _ p c q hq).trans ?_
    unfold k0_pay24 k0_pay20 k0_pay21
    exact (degreeSlab_apply (k0_pay3 x1 x5 x2 x7 x6 x8 x0) x3 x4 (k0_pay5 x9) 384 768 10 _ _ _ _ 3 6 10 rfl rfl rfl p c).trans
      (hfin 3 6 10)
  · refine (joined_12 _ _ _ _ _ _ _ _ _ _ _ _ _ _ p c q hq).trans ?_
    unfold k0_pay25 k0_pay20 k0_pay21
    exact (degreeSlab_apply (k0_pay3 x1 x5 x2 x7 x6 x8 x0) x3 x4 (k0_pay5 x9) 384 768 11 _ _ _ _ 3 6 11 rfl rfl rfl p c).trans
      (hfin 3 6 11)
  · refine (joined_13 _ _ _ _ _ _ _ _ _ _ _ _ _ _ p c q hq).trans ?_
    unfold k0_pay1 k0_pay20 k0_pay21
    exact (degreeSlab_apply (k0_pay3 x1 x5 x2 x7 x6 x8 x0) x3 x4 (k0_pay5 x9) 384 768 12 _ _ _ _ 3 6 12 rfl rfl rfl p c).trans
      (hfin 3 6 12)

end Cert.KernelIdeal.BlockSlabs

end
-- ==== Proof.ArraySpec.lean ====
/-
  The gated value activation of all 65536 edges, as one function of the ten argument arrays.

  Entry (e, s, c) of the result is slab s, channel c, of edge e's output, computed from row e of the attention array,
  of the two edge-feature arrays, of the neighbour-feature array and of the radial-weight array, and from the
  parameters. The same values laid out with the fourteen slabs side by side, 65536 x 1792, have entry
  (e, s * 128 + c) equal to entry (e, s, c): a reshape to 65536 x 14 x 128 recovers the result.
-/
import proofs.«152228_j50208167690483_2_alg».proof.Proof.RowSpec
import Idealize.ShloMosaic.Lib.ValueIdx
import Idealize.ShloMosaic.Lib.Pipeline.Value

noncomputable section

namespace Cert.EdgeRow

open Idealize.ShloMosaic Idealize.ShloMosaic.ValueIdx

/-- The result array: entry (e, s, c) is slab s, channel c, of edge e. -/
def outAt (a0 : (⟨2, ![65536, 896]⟩ : Shape).Idx → EReal) (a1 a2 : (⟨2, ![65536, 128]⟩ : Shape).Idx → EReal)
    (a3 : (⟨3, ![65536, 15, 128]⟩ : Shape).Idx → EReal) (a4 : (⟨2, ![65536, 15]⟩ : Shape).Idx → EReal)
    (a5 : (⟨2, ![896, 128]⟩ : Shape).Idx → EReal) (a6 : (⟨1, ![896]⟩ : Shape).Idx → EReal)
    (a7 : (⟨2, ![896, 128]⟩ : Shape).Idx → EReal) (a8 : (⟨1, ![896]⟩ : Shape).Idx → EReal)
    (a9 : (⟨2, ![128, 128]⟩ : Shape).Idx → EReal) : (⟨3, ![65536, 14, 128]⟩ : Shape).Idx → EReal := fun i =>
  rowOut (combRow (fun n => a0 (ix2 (i 0) n)) (fun k => a1 (ix2 (i 0) k)) (fun k => a2 (ix2 (i 0) k))
      (fun n k => a5 (ix2 n k)) (fun n k => a7 (ix2 n k)) (fun n => a6 (ix1 n)) (fun n => a8 (ix1 n)))
    (fun d k => a3 (ix3 (i 0) d k)) (fun d => a4 (ix2 (i 0) d)) (fun c k => a9 (ix2 c k)) (i 1) (i 2)

/-- An edge's output computed from rows that are the arrays' rows of that edge is the result array's entry. -/
theorem outAt_of_rows (a0 : (⟨2, ![65536, 896]⟩ : Shape).Idx → EReal) (a1 a2 : (⟨2, ![65536, 128]⟩ : Shape).Idx → EReal)
    (a3 : (⟨3, ![65536, 15, 128]⟩ : Shape).Idx → EReal) (a4 : (⟨2, ![65536, 15]⟩ : Shape).Idx → EReal)
    (a5 : (⟨2, ![896, 128]⟩ : Shape).Idx → EReal) (a6 : (⟨1, ![896]⟩ : Shape).Idx → EReal)
    (a7 : (⟨2, ![896, 128]⟩ : Shape).Idx → EReal) (a8 : (⟨1, ![896]⟩ : Shape).Idx → EReal)
    (a9 : (⟨2, ![128, 128]⟩ : Shape).Idx → EReal)
    (e : Fin 65536) (s : Fin 14) (c : Fin 128) (i : (⟨3, ![65536, 14, 128]⟩ : Shape).Idx)
    (hi0 : (i 0).val = e.val) (hi1 : (i 1).val = s.val) (hi2 : (i 2).val = c.val)
    (r0 : Fin 896 → EReal) (r1 r2 : Fin 128 → EReal) (r3 : Fin 15 → Fin 128 → EReal) (r4 : Fin 15 → EReal)
    (r5 : Fin 896 → Fin 128 → EReal) (r6 : Fin 896 → EReal) (r7 : Fin 896 → Fin 128 → EReal) (r8 : Fin 896 → EReal)
    (r9 : Fin 128 → Fin 128 → EReal)
    (h0 : ∀ n, r0 n = a0 (ix2 e n)) (h1 : ∀ k, r1 k = a1 (ix2 e k)) (h2 : ∀ k, r2 k = a2 (ix2 e k))
    (h3 : ∀ d k, r3 d k = a3 (ix3 e d k)) (h4 : ∀ d, r4 d = a4 (ix2 e d)) (h5 : ∀ n k, r5 n k = a5 (ix2 n k))
    (h6 : ∀ n, r6 n = a6 (ix1 n)) (h7 : ∀ n k, r7 n k = a7 (ix2 n k)) (h8 : ∀ n, r8 n = a8 (ix1 n))
    (h9 : ∀ c k, r9 c k = a9 (ix2 c k)) :
    rowOut (combRow r0 r1 r2 r5 r7 r6 r8) r3 r4 r9 s c = outAt a0 a1 a2 a3 a4 a5 a6 a7 a8 a9 i := by
  obtain rfl : i 0 = e := Fin.ext hi0
  obtain rfl : i 1 = s := Fin.ext hi1
  obtain rfl : i 2 = c := Fin.ext hi2
  obtain rfl : r0 = _ := funext h0
  obtain rfl : r1 = _ := funext h1
  obtain rfl : r2 = _ := funext h2
  obtain rfl : r3 = _ := funext fun d => funext (h3 d)
  obtain rfl : r4 = _ := funext h4
  obtain rfl : r5 = _ := funext fun n => funext (h5 n)
  obtain rfl : r6 = _ := funext h6
  obtain rfl : r7 = _ := funext fun n => funext (h7 n)
  obtain rfl : r8 = _ := funext h8
  obtain rfl : r9 = _ := funext fun n => funext (h9 n)
  rfl

/-- The result with its fourteen slabs side by side: entry (e, q) is slab q / 128, channel q % 128, of edge e. -/
def wide (G : (⟨3, ![65536, 14, 128]⟩ : Shape).Idx → EReal) : (⟨2, ![65536, 1792]⟩ : Shape).Idx → EReal := fun j =>
  G (ix3 (j 0) ⟨(j 1).val / 128, by have h : (j 1).val < 1792 := (j 1).isLt; omega⟩ ⟨(j 1).val % 128, Nat.mod_lt _ (by norm_num)⟩)

/-- Reshaping the side-by-side layout to 65536 x 14 x 128 recovers the result. -/
theorem reshape_wide (G : (⟨3, ![65536, 14, 128]⟩ : Shape).Idx → EReal)
    (h : (⟨2, ![65536, 1792]⟩ : Shape).ShapeCasts ⟨3, ![65536, 14, 128]⟩) :
    shapeCast ⟨3, ![65536, 14, 128]⟩ (wide G) h = G := by
  funext i
  obtain ⟨e, s, c, rfl⟩ : ∃ (e : Fin 65536) (s : Fin 14) (c : Fin 128), i = ix3 e s c := ⟨i 0, i 1, i 2, eq_ix3 i⟩
  have hs := s.isLt
  have hc := c.isLt
  refine (shapeCast_apply (wide G) h (ix3 e s c) (ix2 e ⟨s.val * 128 + c.val, by omega⟩) ?_).trans ?_
  · rw [Shape.rowMajor_val_two, Shape.rowMajor_val_three]
    show e.val * 1792 + (s.val * 128 + c.val) = (e.val * 14 + s.val) * 128 + c.val
    omega
  · unfold wide
    refine congrArg G (funext fun a => Fin.ext ?_)
    match a with
    | ⟨0, _⟩ => rfl
    | ⟨1, _⟩ => show (s.val * 128 + c.val) / 128 = s.val; omega
    | ⟨2, _⟩ => show (s.val * 128 + c.val) % 128 = c.val; omega

end Cert.EdgeRow

end
-- ==== Proof.Tiling.lean ====
/-
  From blocks to the array.

  The grid has 128 points; point t stages rows t * 512 .. t * 512 + 511 of each of the five per-edge arrays and the
  whole of each parameter array, and writes back rows t * 512 .. t * 512 + 511 of the 65536 x 1792 output. Row p of a
  staged block is therefore row t * 512 + p of its array, so what point t writes back is block t of the specification's
  side-by-side layout; the 128 blocks tile the output, so the output array ends holding that layout, and the reshape
  after the region turns it into the 65536 x 14 x 128 result.

  The parameter arrays reach the region through host operations: the two weight matrices and the projection change
  float format, which is the identity on the extended reals, and the two bias vectors are reshaped to one row.
-/
import proofs.«152228_j50208167690483_2_alg».proof.Proof.Gen.KernelIdeal.Frame
import proofs.«152228_j50208167690483_2_alg».proof.Proof.BlockSlabs
import proofs.«152228_j50208167690483_2_alg».proof.Proof.ArraySpec
import Idealize.ShloMosaic.Lib.ValueLayout
import Idealize.ShloMosaic.Lib.StableHlo.Run

noncomputable section

open scoped BigOperators

namespace Cert.KernelIdeal.Tiling

open Cert.KernelIdeal Cert.KernelIdeal.Gen Idealize.ShloMosaic Idealize.ShloMosaic.TcCoe Idealize.ShloMosaic.ValueIdx Idealize.SL.Sem Cert.EdgeRow

variable (m : (ℓ : Loc nD τ sig) → Buf (Elt Ideal) ℓ) (ρ : Dev nD → PrngReg)

/-- The result array as a function of the ten argument arrays as launched on core c. -/
abbrev result (c : Dev nD) : S65536x14x128.Idx → EReal :=
  outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## The parameter arrays as the region finds them -/

/-- The first weight matrix after its change of float format: unchanged on the extended reals. -/
theorem V_wrs (c : Dev nD) : (V m c main_v2 : S896x128.Idx → EReal) = (m ((c : Thread nD τ).loc main_arg5)) := by
  show StableHlo.after hostOps0 (fun b => m (c, b)) (Proc.devRef .tc main_v2) = _
  after_results
  rfl

/-- The second weight matrix after its change of float format. -/
theorem V_wg (c : Dev nD) : (V m c main_v3 : S896x128.Idx → EReal) = (m ((c : Thread nD τ).loc main_arg7)) := by
  show StableHlo.after hostOps0 (fun b => m (c, b)) (Proc.devRef .tc main_v3) = _
  after_results
  rfl

/-- The projection matrix after its change of float format. -/
theorem V_xjw (c : Dev nD) : (V m c main_v4 : S128x128.Idx → EReal) = (m ((c : Thread nD τ).loc main_arg9)) := by
  show StableHlo.after hostOps0 (fun b => m (c, b)) (Proc.devRef .tc main_v4) = _
  after_results
  rfl

/-- The first bias vector as one row. -/
theorem V_brs (c : Dev nD) : (V m c main_v0 : S1x896.Idx → EReal)
    = shapeCast S1x896 (m ((c : Thread nD τ).loc main_arg6)) shapeCasts_S896_S1x896 := by
  show StableHlo.after hostOps0 (fun b => m (c, b)) (Proc.devRef .tc main_v0) = _
  after_results
  rfl

/-- The second bias vector as one row. -/
theorem V_bg (c : Dev nD) : (V m c main_v1 : S1x896.Idx → EReal)
    = shapeCast S1x896 (m ((c : Thread nD τ).loc main_arg8)) shapeCasts_S896_S1x896 := by
  show StableHlo.after hostOps0 (fun b => m (c, b)) (Proc.devRef .tc main_v1) = _
  after_results
  rfl

/-! ## What a point writes back -/

/-- The printed index maps over the grid: a per-edge window's block index is the point on the edge axis and zero on the
    others; a parameter window's block index is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- What point t writes back is block t of the specification's side-by-side layout. -/
theorem flushed_eq (c : Dev nD) (t : Fin cfg0.N) :
    (dats m 0 c).flushed 10 t = ((cfg0.win 10).blk t).view.read (Elt Ideal) (wide (result m c)) := by
  show (cfg0.win 10).cut (grid0.coords t) ((dats m 0 c).after 10 t) = _
  rw [after0_10]
  obtain ⟨a00, a01, a10, a11, a20, a21, a30, a31, a32, a40, a41, a50, a51, a60, a61, a70, a71, a80, a81, a90, a91, o0, o1⟩ :=
    idx_facts t
  have ht : t.val < 128 := t.isLt
  funext j
  obtain ⟨p, q, rfl⟩ : ∃ (p : Fin 512) (q : Fin 1792), j = ix2 p q := ⟨j 0, j 1, eq_ix2 j⟩
  have hp := p.isLt
  have hq := q.isLt
  refine (Cert.KernelIdeal.BlockSlabs.block_apply (iblk m c 0 t) (iblk m c 1 t) (iblk m c 2 t) (iblk m c 3 t) (iblk m c 4 t)
    (iblk m c 5 t) (iblk m c 6 t) (iblk m c 7 t) (iblk m c 8 t) (iblk m c 9 t) p
    ⟨q.val / 128, by omega⟩ ⟨q.val % 128, Nat.mod_lt _ (by norm_num)⟩ q
    (by show q.val = q.val / 128 * 128 + q.val % 128; omega)).trans ?_
  refine outAt_of_rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    ⟨t.val * 512 + p.val, by omega⟩ ⟨q.val / 128, by omega⟩ ⟨q.val % 128, Nat.mod_lt _ (by norm_num)⟩ _ ?_ ?_ ?_
    _ _ _ _ _ _ _ _ _ _ ?_ ?_ ?_ ?_ ?_ ?_ ?_ ?_ ?_ ?_
  · show win0_10.index t (0 : Fin 2) * 512 + 1 * p.val = t.val * 512 + p.val
    omega
  · show (win0_10.index t (1 : Fin 2) * 1792 + 1 * q.val) / 128 = q.val / 128
    rw [o1]; omega
  · show (win0_10.index t (1 : Fin 2) * 1792 + 1 * q.val) % 128 = q.val % 128
    rw [o1]; omega
  · intro n
    show V m c main_arg0 (((cfg0.win 0).blk t).view.emb (ix2 p n)) = _
    rw [V_main_arg0]
    refine congrArg _ (funext fun a => Fin.ext ?_)
    match a with
    | ⟨0, _⟩ => show win0_0.index t (0 : Fin 2) * 512 + 1 * p.val = t.val * 512 + p.val; omega
    | ⟨1, _⟩ => show win0_0.index t (1 : Fin 2) * 896 + 1 * n.val = n.val; omega
  · intro k
    show V m c main_arg1 (((cfg0.win 1).blk t).view.emb (ix2 p k)) = _
    rw [V_main_arg1]
    refine congrArg _ (funext fun a => Fin.ext ?_)
    match a with
    | ⟨0, _⟩ => show win0_1.index t (0 : Fin 2) * 512 + 1 * p.val = t.val * 512 + p.val; omega
    | ⟨1, _⟩ => show win0_1.index t (1 : Fin 2) * 128 + 1 * k.val = k.val; omega
  · intro k
    show V m c main_arg2 (((cfg0.win 2).blk t).view.emb (ix2 p k)) = _
    rw [V_main_arg2]
    refine congrArg _ (funext fun a => Fin.ext ?_)
    match a with
    | ⟨0, _⟩ => show win0_2.index t (0 : Fin 2) * 512 + 1 * p.val = t.val * 512 + p.val; omega
    | ⟨1, _⟩ => show win0_2.index t (1 : Fin 2) * 128 + 1 * k.val = k.val; omega
  · intro d k
    show V m c main_arg3 (((cfg0.win 3).blk t).view.emb (ix3 p d k)) = _
    rw [V_main_arg3]
    refine congrArg _ (funext fun a => Fin.ext ?_)
    match a with
    | ⟨0, _⟩ => show win0_3.index t (0 : Fin 3) * 512 + 1 * p.val = t.val * 512 + p.val; omega
    | ⟨1, _⟩ => show win0_3.index t (1 : Fin 3) * 15 + 1 * d.val = d.val; omega
    | ⟨2, _⟩ => show win0_3.index t (2 : Fin 3) * 128 + 1 * k.val = k.val; omega
  · intro d
    show V m c main_arg4 (((cfg0.win 4).blk t).view.emb (ix2 p d)) = _
    rw [V_main_arg4]
    refine congrArg _ (funext fun a => Fin.ext ?_)
    match a with
    | ⟨0, _⟩ => show win0_4.index t (0 : Fin 2) * 512 + 1 * p.val = t.val * 512 + p.val; omega
    | ⟨1, _⟩ => show win0_4.index t (1 : Fin 2) * 15 + 1 * d.val = d.val; omega
  · intro n k
    show V m c main_v2 (((cfg0.win 5).blk t).view.emb (ix2 n k)) = _
    rw [V_wrs]
    refine congrArg _ (funext fun a => Fin.ext ?_)
    match a with
    | ⟨0, _⟩ => show win0_5.index t (0 : Fin 2) * 896 + 1 * n.val = n.val; omega
    | ⟨1, _⟩ => show win0_5.index t (1 : Fin 2) * 128 + 1 * k.val = k.val; omega
  · intro n
    show V m c main_v0 (((cfg0.win 6).blk t).view.emb (ix2 (0 : Fin 1) n)) = _
    rw [V_brs]
    have he : ((cfg0.win 6).blk t).view.emb (ix2 (0 : Fin 1) n) = ix2 (0 : Fin 1) n :=
      funext fun a => Fin.ext (by
        match a with
        | ⟨0, _⟩ => show win0_6.index t (0 : Fin 2) * 1 + 1 * 0 = 0; omega
        | ⟨1, _⟩ => show win0_6.index t (1 : Fin 2) * 896 + 1 * n.val = n.val; omega)
    rw [he]
    exact shapeCast_a_1a_apply _ shapeCasts_S896_S1x896 (0 : Fin 1) n
  · intro n k
    show V m c main_v3 (((cfg0.win 7).blk t).view.emb (ix2 n k)) = _
    rw [V_wg]
    refine congrArg _ (funext fun a => Fin.ext ?_)
    match a with
    | ⟨0, _⟩ => show win0_7.index t (0 : Fin 2) * 896 + 1 * n.val = n.val; omega
    | ⟨1, _⟩ => show win0_7.index t (1 : Fin 2) * 128 + 1 * k.val = k.val; omega
  · intro n
    show V m c main_v1 (((cfg0.win 8).blk t).view.emb (ix2 (0 : Fin 1) n)) = _
    rw [V_bg]
    have he : ((cfg0.win 8).blk t).view.emb (ix2 (0 : Fin 1) n) = ix2 (0 : Fin 1) n :=
      funext fun a => Fin.ext (by
        match a with
        | ⟨0, _⟩ => show win0_8.index t (0 : Fin 2) * 1 + 1 * 0 = 0; omega
        | ⟨1, _⟩ => show win0_8.index t (1 : Fin 2) * 896 + 1 * n.val = n.val; omega)
    rw [he]
    exact shapeCast_a_1a_apply _ shapeCasts_S896_S1x896 (0 : Fin 1) n
  · intro cc k
    show V m c main_v4 (((cfg0.win 9).blk t).view.emb (ix2 cc k)) = _
    rw [V_xjw]
    refine congrArg _ (funext fun a => Fin.ext ?_)
    match a with
    | ⟨0, _⟩ => show win0_9.index t (0 : Fin 2) * 128 + 1 * cc.val = cc.val; omega
    | ⟨1, _⟩ => show win0_9.index t (1 : Fin 2) * 128 + 1 * k.val = k.val; omega

/-! ## The output array, the reshape after the region, and the run -/

/-- A row of the output array lies in the block of the point that holds it. -/
theorem mem_blk (t : Fin cfg0.N) (i : S65536x1792.Idx) :
    i ∈ ((cfg0.win 10).blk t).view.set ↔ ∀ a : Fin 2, win0_10.index t a * S512x1792.size a ≤ (i a).val
      ∧ (i a).val < win0_10.index t a * S512x1792.size a + S512x1792.size a := by
  show i ∈ ((View.whole main_v5).slice (win0_10.rect t)).set ↔ _
  rw [View.set_slice_whole, Rect.mem_set_unit]
  exact Iff.rfl

/-- The 128 blocks tile the output array: row r is in the block of point r / 512. -/
theorem cover (i : S65536x1792.Idx) :
    ∃ t : Fin cfg0.N, (cfg0.win 10).flush t = true ∧ i ∈ ((cfg0.win 10).blk t).view.set := by
  have h0 : (i 0).val < 65536 := (i 0).isLt
  have h1 : (i 1).val < 1792 := (i 1).isLt
  have hN : cfg0.N = 128 := N_0
  refine ⟨⟨(i 0).val / 512, by rw [hN]; omega⟩, flush0_10 _, ?_⟩
  rw [mem_blk]
  obtain ⟨-, -, -, -, -, -, -, -, -, -, -, -, -, -, -, -, -, -, -, -, -, o0, o1⟩ :=
    idx_facts (⟨(i 0).val / 512, by rw [hN]; omega⟩ : Fin cfg0.N)
  intro a
  match a with
  | ⟨0, _⟩ =>
    show win0_10.index _ (0 : Fin 2) * 512 ≤ (i 0).val ∧ (i 0).val < win0_10.index _ (0 : Fin 2) * 512 + 512
    rw [o0]; show (i 0).val / 512 * 512 ≤ (i 0).val ∧ (i 0).val < (i 0).val / 512 * 512 + 512; omega
  | ⟨1, _⟩ =>
    show win0_10.index _ (1 : Fin 2) * 1792 ≤ (i 1).val ∧ (i 1).val < win0_10.index _ (1 : Fin 2) * 1792 + 1792
    rw [o1]; omega

/-- The output array after the region: the specification's side-by-side layout. -/
theorem final (c : Dev nD) : (dats m 0 c).arrAt 10 cfg0.N = wide (result m c) :=
  (dats m 0 c).arrAt_eq_of_cover 10 (wide (result m c)) (fun t _ => flushed_eq m c t) (cover)

/-- The reshape after the region turns the side-by-side layout into the result. -/
theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  have hW := (Pipeline.withArrays_arr spec0 launch0.win.arr_inj c (V0 m c) (fun w => (dats m 0 c).arrAt w cfg0.N) 10).trans
    (final m c)
  funext i
  exact (congrArg (fun A => shapeCast S65536x14x128 A shapeCasts_S65536x1792_S65536x14x128 i) hW).trans
    (congrFun (reshape_wide _ _) i)

/-- The kernel's run, read: every weakly fair execution terminates with the result array at the specification of the
    argument arrays, and the argument arrays unchanged (the five per-edge arrays are staged inputs, which the pipeline
    leaves as it found them; the five parameter arrays are touched by no window and no later host operation). -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Tiling

end
-- ==== Proof.ReferenceRows.lean ====
/-
  The reference's result, entry by entry.

  The reference computes the 896 combined values of every edge at once: two products of the 65536 x 128 edge features
  with the transposed weights, the biases broadcast along the edges, x * (1 / (1 + exp (-x))) for the gate, and the
  attention values added. It reads them as seven slabs by a reshape to 65536 x 7 x 128, projects all fifteen neighbour
  rows in one product, and assembles the output from four pieces along the middle axis: the first slab passed through
  x * (1 / (1 + exp (-x))), then the degrees of order one, two and three. Read at an entry, each step picks one entry of
  its operand, and 1 / (1 + exp (-x)) is the logistic function of the extended reals by definition.
-/
import proofs.«152228_j50208167690483_2_alg».proof.Proof.Gen.ReferenceIdeal.Read
import proofs.«152228_j50208167690483_2_alg».proof.Proof.ArraySpec
import Idealize.ShloMosaic.Lib.ValueIdx
import Idealize.ShloMosaic.Lib.Pipeline.Value
import Idealize.ShloMosaic.PureOps.Ideal.Laws

noncomputable section

open scoped BigOperators

namespace Cert.ReferenceIdeal.Rows

open Cert.ReferenceIdeal Cert.ReferenceIdeal.Gen Cert.ReferenceIdeal.Read Idealize.ShloMosaic Idealize.ShloMosaic.ValueIdx Cert.EdgeRow

/-- The float word of one is the number one. -/
theorem one_bits : Ideal.ofBits .f32 0x3F800000#32 = 1 := by
  simp [Ideal.ofBits, Ideal.ieee, -EReal.coe_mul]; norm_num

variable (x0 : (⟨S65536x896, .f32⟩ : BufTy).Contents (Elt Ideal)) (x1 x2 : (⟨S65536x128, .f32⟩ : BufTy).Contents (Elt Ideal))
  (x3 : (⟨S65536x15x128, .f32⟩ : BufTy).Contents (Elt Ideal)) (x4 : (⟨S65536x15, .f32⟩ : BufTy).Contents (Elt Ideal))
  (x5 : (⟨S896x128, .f32⟩ : BufTy).Contents (Elt Ideal)) (x6 : (⟨S896, .f32⟩ : BufTy).Contents (Elt Ideal))
  (x7 : (⟨S896x128, .f32⟩ : BufTy).Contents (Elt Ideal)) (x8 : (⟨S896, .f32⟩ : BufTy).Contents (Elt Ideal))
  (x9 : (⟨S128x128, .f32⟩ : BufTy).Contents (Elt Ideal))

/-- The combined value of edge e and channel n. -/
theorem combined_apply (e : Fin 65536) (n : Fin 896) :
    val_main_v12 (F := Ideal) x0 x1 x2 x5 x6 x7 x8 (ix2 e n) = (combRow (fun n => x0 (ix2 e n)) (fun k => x1 (ix2 e k)) (fun k => x2 (ix2 e k)) (fun n k => x5 (ix2 n k)) (fun n k => x7 (ix2 n k)) (fun n => x6 (ix1 n)) (fun n => x8 (ix1 n))) n := by
  rw [val_main_v12_apply, val_main_v11_apply, val_main_v4_apply, val_main_v1_apply, val_main_v3_apply, val_main_v2_apply,
    val_main_v10_apply, val_main_call0_v5_apply, val_main_call0_v4_apply, val_main_call0_cst_0_apply,
    val_main_call0_v3_apply, val_main_call0_v2_apply, val_main_call0_cst_apply, val_main_call0_v1_apply,
    val_main_call0_v0_apply, val_main_v9_apply, val_main_v6_apply, val_main_v8_apply, val_main_v7_apply,
    show idx_main_v2 (idx_main_v3 (ix2 e n)) = ix1 n from funext fun a => Fin.ext (by fin_cases a <;> first | rfl | (simp only [idx_main_v2, idx_main_v3, ix1, ix2, ix3, col] <;> omega)),
    show idx_main_v7 (idx_main_v8 (ix2 e n)) = ix1 n from funext fun a => Fin.ext (by fin_cases a <;> first | rfl | (simp only [idx_main_v7, idx_main_v8, ix1, ix2, ix3, col] <;> omega))]
  simp only [val_main_v0_apply, val_main_v5_apply]
  have hl1 : ∀ k, lidx_main_v1 (ix2 e n) k = ix2 e k := fun k => funext fun a => Fin.ext (by fin_cases a <;> first | rfl | (simp only [lidx_main_v1, ix1, ix2, ix3, col] <;> omega))
  have hr1 : ∀ k, idx_main_v0 (ridx_main_v1 (ix2 e n) k) = ix2 n k := fun k => funext fun a => Fin.ext (by fin_cases a <;> first | rfl | (simp only [idx_main_v0, ridx_main_v1, ix1, ix2, ix3, col] <;> omega))
  have hl6 : ∀ k, lidx_main_v6 (ix2 e n) k = ix2 e k := fun k => funext fun a => Fin.ext (by fin_cases a <;> first | rfl | (simp only [lidx_main_v6, ix1, ix2, ix3, col] <;> omega))
  have hr6 : ∀ k, idx_main_v5 (ridx_main_v6 (ix2 e n) k) = ix2 n k := fun k => funext fun a => Fin.ext (by fin_cases a <;> first | rfl | (simp only [idx_main_v5, ridx_main_v6, ix1, ix2, ix3, col] <;> omega))
  simp only [hl1, hr1, hl6, hr6, Ideal.ofBits_def, one_bits]
  rfl

/-- Channel c of slab k of edge e's combined values, through the reshape to 65536 x 7 x 128. -/
theorem slab_apply (e : Fin 65536) (k : Fin 7) (c : Fin 128) :
    val_main_v13 (F := Ideal) x0 x1 x2 x5 x6 x7 x8 (ix3 e k c) = (combRow (fun n => x0 (ix2 e n)) (fun k => x1 (ix2 e k)) (fun k => x2 (ix2 e k)) (fun n k => x5 (ix2 n k)) (fun n k => x7 (ix2 n k)) (fun n => x6 (ix1 n)) (fun n => x8 (ix1 n))) (col k c) := by
  have he : e.val < 65536 := e.isLt
  have hk : k.val < 7 := k.isLt
  have hc : c.val < 128 := c.isLt
  rw [val_main_v13_apply, show idx_main_v13 (ix3 e k c) = ix2 e (col k c) from funext fun a => Fin.ext (by fin_cases a <;> first | rfl | (simp only [idx_main_v13, ix1, ix2, ix3, col] <;> omega))]
  exact combined_apply x0 x1 x2 x5 x6 x7 x8 e (col k c)

/-- Slab 1 of the combined values, repeated over the 3 degrees of its order. -/
theorem slab1_apply (e : Fin 65536) (j : Fin 3) (c : Fin 128) :
    val_main_v28 (F := Ideal) x0 x1 x2 x5 x6 x7 x8 (ix3 e j c) = (combRow (fun n => x0 (ix2 e n)) (fun k => x1 (ix2 e k)) (fun k => x2 (ix2 e k)) (fun n k => x5 (ix2 n k)) (fun n k => x7 (ix2 n k)) (fun n => x6 (ix1 n)) (fun n => x8 (ix1 n))) (col 1 c) := by
  have he : e.val < 65536 := e.isLt
  have hj : j.val < 3 := j.isLt
  have hc : c.val < 128 := c.isLt
  rw [val_main_v28_apply, val_main_v24_apply, val_main_v23_apply, val_main_v22_apply,
    show idx_main_v22 (idx_main_v23 (idx_main_v24 (idx_main_v28 (ix3 e j c)))) = ix3 e (1 : Fin 7) c from
      funext fun a => Fin.ext (by fin_cases a <;> first | rfl | (simp only [idx_main_v22, idx_main_v23, idx_main_v24, idx_main_v28, ix1, ix2, ix3, col] <;> omega))]
  exact slab_apply x0 x1 x2 x5 x6 x7 x8 e 1 c

/-- Slab 4 of the combined values, repeated over the 3 degrees of its order. -/
theorem slab4_apply (e : Fin 65536) (j : Fin 3) (c : Fin 128) :
    val_main_v31 (F := Ideal) x0 x1 x2 x5 x6 x7 x8 (ix3 e j c) = (combRow (fun n => x0 (ix2 e n)) (fun k => x1 (ix2 e k)) (fun k => x2 (ix2 e k)) (fun n k => x5 (ix2 n k)) (fun n k => x7 (ix2 n k)) (fun n => x6 (ix1 n)) (fun n => x8 (ix1 n))) (col 4 c) := by
  have he : e.val < 65536 := e.isLt
  have hj : j.val < 3 := j.isLt
  have hc : c.val < 128 := c.isLt
  rw [val_main_v31_apply, val_main_v27_apply, val_main_v26_apply, val_main_v25_apply,
    show idx_main_v25 (idx_main_v26 (idx_main_v27 (idx_main_v31 (ix3 e j c)))) = ix3 e (4 : Fin 7) c from
      funext fun a => Fin.ext (by fin_cases a <;> first | rfl | (simp only [idx_main_v25, idx_main_v26, idx_main_v27, idx_main_v31, ix1, ix2, ix3, col] <;> omega))]
  exact slab_apply x0 x1 x2 x5 x6 x7 x8 e 4 c

/-- Slab 2 of the combined values, repeated over the 5 degrees of its order. -/
theorem slab2_apply (e : Fin 65536) (j : Fin 5) (c : Fin 128) :
    val_main_v43 (F := Ideal) x0 x1 x2 x5 x6 x7 x8 (ix3 e j c) = (combRow (fun n => x0 (ix2 e n)) (fun k => x1 (ix2 e k)) (fun k => x2 (ix2 e k)) (fun n k => x5 (ix2 n k)) (fun n k => x7 (ix2 n k)) (fun n => x6 (ix1 n)) (fun n => x8 (ix1 n))) (col 2 c) := by
  have he : e.val < 65536 := e.isLt
  have hj : j.val < 5 := j.isLt
  have hc : c.val < 128 := c.isLt
  rw [val_main_v43_apply, val_main_v39_apply, val_main_v38_apply, val_main_v37_apply,
    show idx_main_v37 (idx_main_v38 (idx_main_v39 (idx_main_v43 (ix3 e j c)))) = ix3 e (2 : Fin 7) c from
      funext fun a => Fin.ext (by fin_cases a <;> first | rfl | (simp only [idx_main_v37, idx_main_v38, idx_main_v39, idx_main_v43, ix1, ix2, ix3, col] <;> omega))]
  exact slab_apply x0 x1 x2 x5 x6 x7 x8 e 2 c

/-- Slab 5 of the combined values, repeated over the 5 degrees of its order. -/
theorem slab5_apply (e : Fin 65536) (j : Fin 5) (c : Fin 128) :
    val_main_v46 (F := Ideal) x0 x1 x2 x5 x6 x7 x8 (ix3 e j c) = (combRow (fun n => x0 (ix2 e n)) (fun k => x1 (ix2 e k)) (fun k => x2 (ix2 e k)) (fun n k => x5 (ix2 n k)) (fun n k => x7 (ix2 n k)) (fun n => x6 (ix1 n)) (fun n => x8 (ix1 n))) (col 5 c) := by
  have he : e.val < 65536 := e.isLt
  have hj : j.val < 5 := j.isLt
  have hc : c.val < 128 := c.isLt
  rw [val_main_v46_apply, val_main_v42_apply, val_main_v41_apply, val_main_v40_apply,
    show idx_main_v40 (idx_main_v41 (idx_main_v42 (idx_main_v46 (ix3 e j c)))) = ix3 e (5 : Fin 7) c from
      funext fun a => Fin.ext (by fin_cases a <;> first | rfl | (simp only [idx_main_v40, idx_main_v41, idx_main_v42, idx_main_v46, ix1, ix2, ix3, col] <;> omega))]
  exact slab_apply x0 x1 x2 x5 x6 x7 x8 e 5 c

/-- Slab 3 of the combined values, repeated over the 5 degrees of its order. -/
theorem slab3_apply (e : Fin 65536) (j : Fin 5) (c : Fin 128) :
    val_main_v58 (F := Ideal) x0 x1 x2 x5 x6 x7 x8 (ix3 e j c) = (combRow (fun n => x0 (ix2 e n)) (fun k => x1 (ix2 e k)) (fun k => x2 (ix2 e k)) (fun n k => x5 (ix2 n k)) (fun n k => x7 (ix2 n k)) (fun n => x6 (ix1 n)) (fun n => x8 (ix1 n))) (col 3 c) := by
  have he : e.val < 65536 := e.isLt
  have hj : j.val < 5 := j.isLt
  have hc : c.val < 128 := c.isLt
  rw [val_main_v58_apply, val_main_v54_apply, val_main_v53_apply, val_main_v52_apply,
    show idx_main_v52 (idx_main_v53 (idx_main_v54 (idx_main_v58 (ix3 e j c)))) = ix3 e (3 : Fin 7) c from
      funext fun a => Fin.ext (by fin_cases a <;> first | rfl | (simp only [idx_main_v52, idx_main_v53, idx_main_v54, idx_main_v58, ix1, ix2, ix3, col] <;> omega))]
  exact slab_apply x0 x1 x2 x5 x6 x7 x8 e 3 c

/-- Slab 6 of the combined values, repeated over the 5 degrees of its order. -/
theorem slab6_apply (e : Fin 65536) (j : Fin 5) (c : Fin 128) :
    val_main_v61 (F := Ideal) x0 x1 x2 x5 x6 x7 x8 (ix3 e j c) = (combRow (fun n => x0 (ix2 e n)) (fun k => x1 (ix2 e k)) (fun k => x2 (ix2 e k)) (fun n k => x5 (ix2 n k)) (fun n k => x7 (ix2 n k)) (fun n => x6 (ix1 n)) (fun n => x8 (ix1 n))) (col 6 c) := by
  have he : e.val < 65536 := e.isLt
  have hj : j.val < 5 := j.isLt
  have hc : c.val < 128 := c.isLt
  rw [val_main_v61_apply, val_main_v57_apply, val_main_v56_apply, val_main_v55_apply,
    show idx_main_v55 (idx_main_v56 (idx_main_v57 (idx_main_v61 (ix3 e j c)))) = ix3 e (6 : Fin 7) c from
      funext fun a => Fin.ext (by fin_cases a <;> first | rfl | (simp only [idx_main_v55, idx_main_v56, idx_main_v57, idx_main_v61, ix1, ix2, ix3, col] <;> omega))]
  exact slab_apply x0 x1 x2 x5 x6 x7 x8 e 6 c

/-- The radial weights of degrees 0 .. 2, repeated over the channels. -/
theorem radial0_apply (e : Fin 65536) (j : Fin 3) (c : Fin 128) (d : Fin 15) (hd : d.val = 0 + j.val) :
    val_main_v29 (F := Ideal) x4 (ix3 e j c) = x4 (ix2 e d) := by
  have he : e.val < 65536 := e.isLt
  have hj : j.val < 3 := j.isLt
  have hc : c.val < 128 := c.isLt
  have hdd : d.val < 15 := d.isLt
  rw [val_main_v29_apply, val_main_v21_apply, val_main_v20_apply]
  exact congrArg x4 (funext fun a => Fin.ext (by fin_cases a <;> first | rfl | (simp only [idx_main_v20, idx_main_v21, idx_main_v29, ix1, ix2, ix3, col] <;> omega)))

/-- The radial weights of degrees 3 .. 7, repeated over the channels. -/
theorem radial3_apply (e : Fin 65536) (j : Fin 5) (c : Fin 128) (d : Fin 15) (hd : d.val = 3 + j.val) :
    val_main_v44 (F := Ideal) x4 (ix3 e j c) = x4 (ix2 e d) := by
  have he : e.val < 65536 := e.isLt
  have hj : j.val < 5 := j.isLt
  have hc : c.val < 128 := c.isLt
  have hdd : d.val < 15 := d.isLt
  rw [val_main_v44_apply, val_main_v36_apply, val_main_v35_apply]
  exact congrArg x4 (funext fun a => Fin.ext (by fin_cases a <;> first | rfl | (simp only [idx_main_v35, idx_main_v36, idx_main_v44, ix1, ix2, ix3, col] <;> omega)))

/-- The radial weights of degrees 8 .. 12, repeated over the channels. -/
theorem radial8_apply (e : Fin 65536) (j : Fin 5) (c : Fin 128) (d : Fin 15) (hd : d.val = 8 + j.val) :
    val_main_v59 (F := Ideal) x4 (ix3 e j c) = x4 (ix2 e d) := by
  have he : e.val < 65536 := e.isLt
  have hj : j.val < 5 := j.isLt
  have hc : c.val < 128 := c.isLt
  have hdd : d.val < 15 := d.isLt
  rw [val_main_v59_apply, val_main_v51_apply, val_main_v50_apply]
  exact congrArg x4 (funext fun a => Fin.ext (by fin_cases a <;> first | rfl | (simp only [idx_main_v50, idx_main_v51, idx_main_v59, ix1, ix2, ix3, col] <;> omega)))

/-- The projected neighbour rows of degrees 0 .. 2. -/
theorem proj0_apply (e : Fin 65536) (j : Fin 3) (c : Fin 128) (d : Fin 15) (hd : d.val = 0 + j.val) :
    val_main_v19 (F := Ideal) x3 x9 (ix3 e j c) = ∑ k : Fin 128, x3 (ix3 e d k) * x9 (ix2 c k) := by
  have he : e.val < 65536 := e.isLt
  have hj : j.val < 3 := j.isLt
  have hc : c.val < 128 := c.isLt
  have hdd : d.val < 15 := d.isLt
  rw [val_main_v19_apply, val_main_v18_apply]
  refine Finset.sum_congr rfl fun k _ => ?_
  rw [show lidx_main_v18 (idx_main_v19 (ix3 e j c)) k = ix3 e d k from funext fun a => Fin.ext (by fin_cases a <;> first | rfl | (simp only [lidx_main_v18, idx_main_v19, ix1, ix2, ix3, col] <;> omega)),
    show ridx_main_v18 (idx_main_v19 (ix3 e j c)) k = ix2 c k from funext fun a => Fin.ext (by fin_cases a <;> first | rfl | (simp only [ridx_main_v18, idx_main_v19, ix1, ix2, ix3, col] <;> omega))]

/-- The projected neighbour rows of degrees 3 .. 7. -/
theorem proj3_apply (e : Fin 65536) (j : Fin 5) (c : Fin 128) (d : Fin 15) (hd : d.val = 3 + j.val) :
    val_main_v34 (F := Ideal) x3 x9 (ix3 e j c) = ∑ k : Fin 128, x3 (ix3 e d k) * x9 (ix2 c k) := by
  have he : e.val < 65536 := e.isLt
  have hj : j.val < 5 := j.isLt
  have hc : c.val < 128 := c.isLt
  have hdd : d.val < 15 := d.isLt
  rw [val_main_v34_apply, val_main_v18_apply]
  refine Finset.sum_congr rfl fun k _ => ?_
  rw [show lidx_main_v18 (idx_main_v34 (ix3 e j c)) k = ix3 e d k from funext fun a => Fin.ext (by fin_cases a <;> first | rfl | (simp only [lidx_main_v18, idx_main_v34, ix1, ix2, ix3, col] <;> omega)),
    show ridx_main_v18 (idx_main_v34 (ix3 e j c)) k = ix2 c k from funext fun a => Fin.ext (by fin_cases a <;> first | rfl | (simp only [ridx_main_v18, idx_main_v34, ix1, ix2, ix3, col] <;> omega))]

/-- The projected neighbour rows of degrees 8 .. 12. -/
theorem proj8_apply (e : Fin 65536) (j : Fin 5) (c : Fin 128) (d : Fin 15) (hd : d.val = 8 + j.val) :
    val_main_v49 (F := Ideal) x3 x9 (ix3 e j c) = ∑ k : Fin 128, x3 (ix3 e d k) * x9 (ix2 c k) := by
  have he : e.val < 65536 := e.isLt
  have hj : j.val < 5 := j.isLt
  have hc : c.val < 128 := c.isLt
  have hdd : d.val < 15 := d.isLt
  rw [val_main_v49_apply, val_main_v18_apply]
  refine Finset.sum_congr rfl fun k _ => ?_
  rw [show lidx_main_v18 (idx_main_v49 (ix3 e j c)) k = ix3 e d k from funext fun a => Fin.ext (by fin_cases a <;> first | rfl | (simp only [lidx_main_v18, idx_main_v49, ix1, ix2, ix3, col] <;> omega)),
    show ridx_main_v18 (idx_main_v49 (ix3 e j c)) k = ix2 c k from funext fun a => Fin.ext (by fin_cases a <;> first | rfl | (simp only [ridx_main_v18, idx_main_v49, ix1, ix2, ix3, col] <;> omega))]

/-- The slabs of degrees 0 .. 2: slab 1 times the radial weight plus slab 4 times the projected row. -/
theorem group0_apply (e : Fin 65536) (j : Fin 3) (c : Fin 128) (d : Fin 15) (hd : d.val = 0 + j.val) :
    val_main_v33 (F := Ideal) x0 x1 x2 x3 x4 x5 x6 x7 x8 x9 (ix3 e j c)
      = degree (combRow (fun n => x0 (ix2 e n)) (fun k => x1 (ix2 e k)) (fun k => x2 (ix2 e k)) (fun n k => x5 (ix2 n k)) (fun n k => x7 (ix2 n k)) (fun n => x6 (ix1 n)) (fun n => x8 (ix1 n))) (fun d k => x3 (ix3 e d k)) (fun d => x4 (ix2 e d)) (fun c k => x9 (ix2 c k)) 1 4 d c := by
  rw [val_main_v33_apply, val_main_v30_apply, val_main_v32_apply, slab1_apply x0 x1 x2 x5 x6 x7 x8 e j c,
    slab4_apply x0 x1 x2 x5 x6 x7 x8 e j c, radial0_apply x4 e j c d hd, proj0_apply x3 x9 e j c d hd]
  rfl

/-- The slabs of degrees 3 .. 7: slab 2 times the radial weight plus slab 5 times the projected row. -/
theorem group3_apply (e : Fin 65536) (j : Fin 5) (c : Fin 128) (d : Fin 15) (hd : d.val = 3 + j.val) :
    val_main_v48 (F := Ideal) x0 x1 x2 x3 x4 x5 x6 x7 x8 x9 (ix3 e j c)
      = degree (combRow (fun n => x0 (ix2 e n)) (fun k => x1 (ix2 e k)) (fun k => x2 (ix2 e k)) (fun n k => x5 (ix2 n k)) (fun n k => x7 (ix2 n k)) (fun n => x6 (ix1 n)) (fun n => x8 (ix1 n))) (fun d k => x3 (ix3 e d k)) (fun d => x4 (ix2 e d)) (fun c k => x9 (ix2 c k)) 2 5 d c := by
  rw [val_main_v48_apply, val_main_v45_apply, val_main_v47_apply, slab2_apply x0 x1 x2 x5 x6 x7 x8 e j c,
    slab5_apply x0 x1 x2 x5 x6 x7 x8 e j c, radial3_apply x4 e j c d hd, proj3_apply x3 x9 e j c d hd]
  rfl

/-- The slabs of degrees 8 .. 12: slab 3 times the radial weight plus slab 6 times the projected row. -/
theorem group8_apply (e : Fin 65536) (j : Fin 5) (c : Fin 128) (d : Fin 15) (hd : d.val = 8 + j.val) :
    val_main_v63 (F := Ideal) x0 x1 x2 x3 x4 x5 x6 x7 x8 x9 (ix3 e j c)
      = degree (combRow (fun n => x0 (ix2 e n)) (fun k => x1 (ix2 e k)) (fun k => x2 (ix2 e k)) (fun n k => x5 (ix2 n k)) (fun n k => x7 (ix2 n k)) (fun n => x6 (ix1 n)) (fun n => x8 (ix1 n))) (fun d k => x3 (ix3 e d k)) (fun d => x4 (ix2 e d)) (fun c k => x9 (ix2 c k)) 3 6 d c := by
  rw [val_main_v63_apply, val_main_v60_apply, val_main_v62_apply, slab3_apply x0 x1 x2 x5 x6 x7 x8 e j c,
    slab6_apply x0 x1 x2 x5 x6 x7 x8 e j c, radial8_apply x4 e j c d hd, proj8_apply x3 x9 e j c d hd]
  rfl

/-- The first piece: x * (1 / (1 + exp (-x))) of slab 0, which is x times the logistic of x. -/
theorem head_apply (e : Fin 65536) (c : Fin 128) :
    val_main_v17 (F := Ideal) x0 x1 x2 x5 x6 x7 x8 (ix3 e (0 : Fin 1) c) = silu ((combRow (fun n => x0 (ix2 e n)) (fun k => x1 (ix2 e k)) (fun k => x2 (ix2 e k)) (fun n k => x5 (ix2 n k)) (fun n k => x7 (ix2 n k)) (fun n => x6 (ix1 n)) (fun n => x8 (ix1 n))) (col 0 c)) := by
  have he : e.val < 65536 := e.isLt
  have hc : c.val < 128 := c.isLt
  rw [val_main_v17_apply, val_main_v16_apply, val_main_call1_v5_apply, val_main_call1_v4_apply,
    val_main_call1_cst_0_apply, val_main_call1_v3_apply, val_main_call1_v2_apply, val_main_call1_cst_apply,
    val_main_call1_v1_apply, val_main_call1_v0_apply, val_main_v15_apply, val_main_v14_apply,
    show idx_main_v14 (idx_main_v15 (idx_main_v17 (ix3 e (0 : Fin 1) c))) = ix3 e (0 : Fin 7) c from funext fun a => Fin.ext (by fin_cases a <;> first | rfl | (simp only [idx_main_v14, idx_main_v15, idx_main_v17, ix1, ix2, ix3, col] <;> omega)),
    slab_apply x0 x1 x2 x5 x6 x7 x8 e 0 c]
  simp only [Ideal.ofBits_def, one_bits]
  rfl

set_option maxHeartbeats 2000000 in
/-- The reference's result is the specification of its argument arrays. -/
theorem result_eq : val_main_v64 (F := Ideal) x0 x1 x2 x3 x4 x5 x6 x7 x8 x9 = outAt x0 x1 x2 x3 x4 x5 x6 x7 x8 x9 := by
  funext i
  obtain ⟨e, s, c, rfl⟩ : ∃ (e : Fin 65536) (s : Fin 14) (c : Fin 128), i = ix3 e s c := ⟨i 0, i 1, i 2, eq_ix3 i⟩
  unfold val_main_v64 outAt
  fin_cases s
  · refine Eq.trans (concatenate_apply_piece (t := S65536x14x128) (1 : Fin 3) _ _ (ix3 e (0 : Fin 14) c) 0 (by simp) S65536x1x128 _ rfl rfl 0 rfl
      (ix3 e (0 : Fin 1) c) (fun b hb => match b with
        | ⟨0, _⟩ => rfl
        | ⟨1, _⟩ => absurd (Fin.ext rfl) hb
        | ⟨2, _⟩ => rfl) rfl) ?_
    exact head_apply x0 x1 x2 x5 x6 x7 x8 e c
  · refine Eq.trans (concatenate_apply_piece (t := S65536x14x128) (1 : Fin 3) _ _ (ix3 e (1 : Fin 14) c) 1 (by simp) S65536x3x128 _ rfl rfl 1 rfl
      (ix3 e (0 : Fin 3) c) (fun b hb => match b with
        | ⟨0, _⟩ => rfl
        | ⟨1, _⟩ => absurd (Fin.ext rfl) hb
        | ⟨2, _⟩ => rfl) rfl) ?_
    exact group0_apply x0 x1 x2 x3 x4 x5 x6 x7 x8 x9 e (0 : Fin 3) c (0 : Fin 15) rfl
  · refine Eq.trans (concatenate_apply_piece (t := S65536x14x128) (1 : Fin 3) _ _ (ix3 e (2 : Fin 14) c) 1 (by simp) S65536x3x128 _ rfl rfl 1 rfl
      (ix3 e (1 : Fin 3) c) (fun b hb => match b with
        | ⟨0, _⟩ => rfl
        | ⟨1, _⟩ => absurd (Fin.ext rfl) hb
        | ⟨2, _⟩ => rfl) rfl) ?_
    exact group0_apply x0 x1 x2 x3 x4 x5 x6 x7 x8 x9 e (1 : Fin 3) c (1 : Fin 15) rfl
  · refine Eq.trans (concatenate_apply_piece (t := S65536x14x128) (1 : Fin 3) _ _ (ix3 e (3 : Fin 14) c) 1 (by simp) S65536x3x128 _ rfl rfl 1 rfl
      (ix3 e (2 : Fin 3) c) (fun b hb => match b with
        | ⟨0, _⟩ => rfl
        | ⟨1, _⟩ => absurd (Fin.ext rfl) hb
        | ⟨2, _⟩ => rfl) rfl) ?_
    exact group0_apply x0 x1 x2 x3 x4 x5 x6 x7 x8 x9 e (2 : Fin 3) c (2 : Fin 15) rfl
  · refine Eq.trans (concatenate_apply_piece (t := S65536x14x128) (1 : Fin 3) _ _ (ix3 e (4 : Fin 14) c) 2 (by simp) S65536x5x128 _ rfl rfl 4 rfl
      (ix3 e (0 : Fin 5) c) (fun b hb => match b with
        | ⟨0, _⟩ => rfl
        | ⟨1, _⟩ => absurd (Fin.ext rfl) hb
        | ⟨2, _⟩ => rfl) rfl) ?_
    exact group3_apply x0 x1 x2 x3 x4 x5 x6 x7 x8 x9 e (0 : Fin 5) c (3 : Fin 15) rfl
  · refine Eq.trans (concatenate_apply_piece (t := S65536x14x128) (1 : Fin 3) _ _ (ix3 e (5 : Fin 14) c) 2 (by simp) S65536x5x128 _ rfl rfl 4 rfl
      (ix3 e (1 : Fin 5) c) (fun b hb => match b with
        | ⟨0, _⟩ => rfl
        | ⟨1, _⟩ => absurd (Fin.ext rfl) hb
        | ⟨2, _⟩ => rfl) rfl) ?_
    exact group3_apply x0 x1 x2 x3 x4 x5 x6 x7 x8 x9 e (1 : Fin 5) c (4 : Fin 15) rfl
  · refine Eq.trans (concatenate_apply_piece (t := S65536x14x128) (1 : Fin 3) _ _ (ix3 e (6 : Fin 14) c) 2 (by simp) S65536x5x128 _ rfl rfl 4 rfl
      (ix3 e (2 : Fin 5) c) (fun b hb => match b with
        | ⟨0, _⟩ => rfl
        | ⟨1, _⟩ => absurd (Fin.ext rfl) hb
        | ⟨2, _⟩ => rfl) rfl) ?_
    exact group3_apply x0 x1 x2 x3 x4 x5 x6 x7 x8 x9 e (2 : Fin 5) c (5 : Fin 15) rfl
  · refine Eq.trans (concatenate_apply_piece (t := S65536x14x128) (1 : Fin 3) _ _ (ix3 e (7 : Fin 14) c) 2 (by simp) S65536x5x128 _ rfl rfl 4 rfl
      (ix3 e (3 : Fin 5) c) (fun b hb => match b with
        | ⟨0, _⟩ => rfl
        | ⟨1, _⟩ => absurd (Fin.ext rfl) hb
        | ⟨2, _⟩ => rfl) rfl) ?_
    exact group3_apply x0 x1 x2 x3 x4 x5 x6 x7 x8 x9 e (3 : Fin 5) c (6 : Fin 15) rfl
  · refine Eq.trans (concatenate_apply_piece (t := S65536x14x128) (1 : Fin 3) _ _ (ix3 e (8 : Fin 14) c) 2 (by simp) S65536x5x128 _ rfl rfl 4 rfl
      (ix3 e (4 : Fin 5) c) (fun b hb => match b with
        | ⟨0, _⟩ => rfl
        | ⟨1, _⟩ => absurd (Fin.ext rfl) hb
        | ⟨2, _⟩ => rfl) rfl) ?_
    exact group3_apply x0 x1 x2 x3 x4 x5 x6 x7 x8 x9 e (4 : Fin 5) c (7 : Fin 15) rfl
  · refine Eq.trans (concatenate_apply_piece (t := S65536x14x128) (1 : Fin 3) _ _ (ix3 e (9 : Fin 14) c) 3 (by simp) S65536x5x128 _ rfl rfl 9 rfl
      (ix3 e (0 : Fin 5) c) (fun b hb => match b with
        | ⟨0, _⟩ => rfl
        | ⟨1, _⟩ => absurd (Fin.ext rfl) hb
        | ⟨2, _⟩ => rfl) rfl) ?_
    exact group8_apply x0 x1 x2 x3 x4 x5 x6 x7 x8 x9 e (0 : Fin 5) c (8 : Fin 15) rfl
  · refine Eq.trans (concatenate_apply_piece (t := S65536x14x128) (1 : Fin 3) _ _ (ix3 e (10 : Fin 14) c) 3 (by simp) S65536x5x128 _ rfl rfl 9 rfl
      (ix3 e (1 : Fin 5) c) (fun b hb => match b with
        | ⟨0, _⟩ => rfl
        | ⟨1, _⟩ => absurd (Fin.ext rfl) hb
        | ⟨2, _⟩ => rfl) rfl) ?_
    exact group8_apply x0 x1 x2 x3 x4 x5 x6 x7 x8 x9 e (1 : Fin 5) c (9 : Fin 15) rfl
  · refine Eq.trans (concatenate_apply_piece (t := S65536x14x128) (1 : Fin 3) _ _ (ix3 e (11 : Fin 14) c) 3 (by simp) S65536x5x128 _ rfl rfl 9 rfl
      (ix3 e (2 : Fin 5) c) (fun b hb => match b with
        | ⟨0, _⟩ => rfl
        | ⟨1, _⟩ => absurd (Fin.ext rfl) hb
        | ⟨2, _⟩ => rfl) rfl) ?_
    exact group8_apply x0 x1 x2 x3 x4 x5 x6 x7 x8 x9 e (2 : Fin 5) c (10 : Fin 15) rfl
  · refine Eq.trans (concatenate_apply_piece (t := S65536x14x128) (1 : Fin 3) _ _ (ix3 e (12 : Fin 14) c) 3 (by simp) S65536x5x128 _ rfl rfl 9 rfl
      (ix3 e (3 : Fin 5) c) (fun b hb => match b with
        | ⟨0, _⟩ => rfl
        | ⟨1, _⟩ => absurd (Fin.ext rfl) hb
        | ⟨2, _⟩ => rfl) rfl) ?_
    exact group8_apply x0 x1 x2 x3 x4 x5 x6 x7 x8 x9 e (3 : Fin 5) c (11 : Fin 15) rfl
  · refine Eq.trans (concatenate_apply_piece (t := S65536x14x128) (1 : Fin 3) _ _ (ix3 e (13 : Fin 14) c) 3 (by simp) S65536x5x128 _ rfl rfl 9 rfl
      (ix3 e (4 : Fin 5) c) (fun b hb => match b with
        | ⟨0, _⟩ => rfl
        | ⟨1, _⟩ => absurd (Fin.ext rfl) hb
        | ⟨2, _⟩ => rfl) rfl) ?_
    exact group8_apply x0 x1 x2 x3 x4 x5 x6 x7 x8 x9 e (4 : Fin 5) c (12 : Fin 15) rfl

end Cert.ReferenceIdeal.Rows

end
-- ==== Proof.lean ====
/-
  A gated value activation over 65536 graph edges: the tiled kernel and the whole-array reference compute one function.

  For every edge the 896 combined values are the attention values plus (t . Wrs + brs) * silu (h . Wg + bg), with
  silu x = x * logistic x; the output's fourteen slabs of 128 channels are silu of the first slab and, for each of the
  thirteen degrees, one slab times the edge's radial weight plus another slab times the projection of the edge's
  neighbour row (Proof/RowSpec.lean, Proof/ArraySpec.lean). Each edge's output depends on that edge's rows only.

  The kernel walks the edges in 128 blocks of 512, keeps the fourteen slabs side by side in a 512 x 1792 block and
  reshapes the 65536 x 1792 array at the end; it multiplies by the weights in a narrower float format and spells the
  logistic as one operation (Proof/BlockEntry.lean, Proof/BlockSlabs.lean, Proof/Tiling.lean). The reference works on
  whole arrays, spells the logistic as 1 / (1 + exp (-x)), projects all fifteen neighbour rows at once and joins four
  pieces along the middle axis (Proof/ReferenceRows.lean). On the extended reals a change of float format is the
  identity, the logistic is 1 / (1 + exp (-x)) by definition, and both sides add and multiply the same terms in the same
  order, so the two results are equal entry by entry for all inputs; the precondition is not used.

  The three frames are the generated ones (the reference's is its generated run with the result dropped), and the
  idealization rewrote nothing, so that claim is trivial.
-/
import proofs.«152228_j50208167690483_2_alg».proof.Defs
import proofs.«152228_j50208167690483_2_alg».proof.Proof.Gen.Kernel
import proofs.«152228_j50208167690483_2_alg».proof.Proof.Gen.Kernel.Frame
import proofs.«152228_j50208167690483_2_alg».proof.Proof.Gen.KernelIdeal
import proofs.«152228_j50208167690483_2_alg».proof.Proof.Gen.KernelIdeal.Frame
import proofs.«152228_j50208167690483_2_alg».proof.Proof.Gen.ReferenceIdeal
import proofs.«152228_j50208167690483_2_alg».proof.Proof.Gen.ReferenceIdeal.Run
import proofs.«152228_j50208167690483_2_alg».proof.Proof.Gen.ReferenceIdeal.Read
import proofs.«152228_j50208167690483_2_alg».proof.Proof.Gen.Pre_finite_inputs
import proofs.«152228_j50208167690483_2_alg».proof.Proof.Tiling
import proofs.«152228_j50208167690483_2_alg».proof.Proof.ReferenceRows
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification of the argument arrays, which agree. -/
theorem algebraic : Cert.algebraic_KernelIdeal_ReferenceIdeal := by
  intro m ρ m' ρ' _ hagree
  refine ⟨fun c => Cert.KernelIdeal.Tiling.result m c, Cert.KernelIdeal.Tiling.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v64_eq, Cert.ReferenceIdeal.Rows.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
